-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S64x2 .f32) (main_arg7 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 88
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S1x2, .f32⟩
  | .hbm, ⟨87, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x2, .f32⟩
  | .local _ .vmem, ⟨23, _⟩ => ⟨S1x2, .f32⟩
  | .local _ .vmem, ⟨24, _⟩ => ⟨S5000x2, .f32⟩
  | .local _ .vmem, ⟨25, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S50000x2.size a
  hwx4_3 : ∀ i : grid4.Coords, EltTy.bits .f32 = 32 ∨ (Rect.block (s := S50000x2) S5000x2.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S50000x64, .f32⟩
  | .hbm, ⟨93, _⟩ => ⟨S50000x64, .f32⟩
  | .hbm, ⟨94, _⟩ => ⟨S50000x2, .f32⟩
  | .hbm, ⟨95, _⟩ => ⟨S1x2, .f32⟩
  | .hbm, ⟨96, _⟩ => ⟨S50000x2, .f32⟩
  | .hbm, ⟨97, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KernelEnd.lean ====
/-
  Where the idealized kernel's run ends.

  @main of the kernel program is eleven segments: stretches of host operations and five tiled regions.  The
  contents of every buffer at each boundary between segments form a fold from the launch memory: a stretch of
  host operations maps the contents before it to the contents after it, and a region replaces the arrays of its
  windows by what its write-backs leave and keeps every other buffer.  The last boundary of that fold is
  `W11`.  This module runs the segments once more and keeps, of the final state, the result array `main_v63`
  at `W11` beside the eight argument arrays at their launch contents.
-/
import proofs.«168623_j50723563766346_1_alg».proof.Proof.Gen.KernelIdeal.Frame

set_option maxRecDepth 16384

noncomputable section

namespace Cert.KernelIdeal.KernelEnd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends at the
    last boundary's contents `W11` and each argument array as launched. -/
theorem run_to_last_boundary : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.KernelEnd

end
-- ==== Proof.Stages.lean ====
/-
  The host side the two programs share.

  Both programs build the graph's normalisation the same way, on the host.  From the edge list `e : [2, 800000]` they
  take the row of sources and the row of targets and append the self loops `0 … 49999` to each (`sources`, `targets`:
  850000 entries); the degree of a node is the number of targets equal to it (a scatter-add of ones), its weight is
  `degree^(-1/2)` where the degree is positive and `0` elsewhere, and the coefficient of an edge is the product of its two
  endpoints' weights (`edgeNorm`), the endpoints read after a negative index has been moved up by 50000 (`wrap`).  One
  round of message passing (`aggregate`) gathers the rows of a `[50000, 64]` array at the sources, scales row `j` by edge
  `j`'s coefficient, and scatter-adds the rows at the targets into a zero array.

  These are the host operations of either program, composed; nothing here is opened by the proof: the two programs
  apply the same composition, so it is carried by congruence.
-/
import proofs.«168623_j50723563766346_1_alg».proof.Proof.Gen.ReferenceIdeal
import Idealize.ShloMosaic.PureOps.Ideal

noncomputable section

namespace Cert.ReferenceIdeal.Stages

open Cert.ReferenceIdeal Cert.ReferenceIdeal.Facts₀ Idealize.ShloMosaic

variable {F : FTy → Type} [FloatOps F]

/-- The sources of the 800000 edges, then the 50000 self loops. -/
def sources (e : (⟨S2x800000, .i32⟩ : BufTy).Contents (Elt F)) : (⟨S850000, .i32⟩ : BufTy).Contents (Elt F) :=
  concatenate S850000 0 [⟨S800000, (shapeCast S800000 (extractStridedSlice S1x800000 ![0, 0] e slices_S2x800000_S1x800000_0_0) shapeCasts_S1x800000_S800000 : (⟨S800000, .i32⟩ : BufTy).Contents (Elt F))⟩, ⟨S50000, (iotaInDim S50000 32 0 : (⟨S50000, .i32⟩ : BufTy).Contents (Elt F))⟩] concatenates_S800000_S50000_S850000_d0

/-- The targets of the 800000 edges, then the 50000 self loops. -/
def targets (e : (⟨S2x800000, .i32⟩ : BufTy).Contents (Elt F)) : (⟨S850000, .i32⟩ : BufTy).Contents (Elt F) :=
  concatenate S850000 0 [⟨S800000, (shapeCast S800000 (extractStridedSlice S1x800000 ![1, 0] e slices_S2x800000_S1x800000_1_0) shapeCasts_S1x800000_S800000 : (⟨S800000, .i32⟩ : BufTy).Contents (Elt F))⟩, ⟨S50000, (iotaInDim S50000 32 0 : (⟨S50000, .i32⟩ : BufTy).Contents (Elt F))⟩] concatenates_S800000_S50000_S850000_d0

/-- A negative node index moved up by 50000 (numpy's indexing from the end); the others kept. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- A vector of 850000 indices as the one-column index array a gather or a scatter takes. -/
def column (v : (⟨S850000, .i32⟩ : BufTy).Contents (Elt F)) : (⟨S850000x1, .i32⟩ : BufTy).Contents (Elt F) :=
  broadcastInDim S850000x1 ![0] bcast_S850000_S850000x1_0 v

/-- The degree of every node: ones scatter-added at the targets. -/
def degree (e : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (column (targets e))
    (broadcastInDim S850000 ![] bcast_S_S850000 (constant S_ .f32 0x3F800000#32))

/-- The weight of every node: `degree^(-1/2)` where the degree is positive, `0` elsewhere. -/
def weight (e : (⟨S2x800000, .i32⟩ : BufTy).Contents (Elt F)) : (⟨S50000, .f32⟩ : BufTy).Contents (Elt F) :=
  select (cmpf .ogt (degree e) (broadcastInDim S50000 ![] bcast_S_S50000 (constant S_ .f32 0x00000000#32)))
    (Host.rsqrt (degree e))
    (broadcastInDim S50000 ![] bcast_S_S50000 (id (constant S_ .f32 0x00000000#32)))

/-- The coefficient of every edge: the product of its endpoints' weights. -/
def edgeNorm (e : (⟨S2x800000, .i32⟩ : BufTy).Contents (Elt F)) : (⟨S850000, .f32⟩ : BufTy).Contents (Elt F) :=
  mulf (Host.gather gather_S50000_S850000x1_S850000_n_0_n_n_0_1_1 (weight e) (column (wrap (sources e))))
    (Host.gather gather_S50000_S850000x1_S850000_n_0_n_n_0_1_1 (weight e) (column (wrap (targets e))))

/-- One round of message passing over a `[50000, 64]` array `h`: the rows of `h` at the sources, each scaled by its
    edge's coefficient, scatter-added at the targets into a zero array. -/
def aggregate (h : (⟨S50000x64, .f32⟩ : BufTy).Contents (Elt F)) (e : (⟨S2x800000, .i32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (column (targets e))
    (mulf (Host.gather gather_S50000x64_S850000x1_S850000x64_1_0_n_n_0_1_164 h (column (wrap (sources e))))
      (broadcastInDim S850000x64 ![0, 1] bcast_S850000x1_S850000x64_0_1
        (broadcastInDim S850000x1 ![0] bcast_S850000_S850000x1_0 (edgeNorm e))))

/-- The same round with the index vectors and the coefficients it reads given by name: what a stretch of host
    operations computes from the buffers it finds. -/
def aggregateFrom (h : (⟨S50000x64, .f32⟩ : BufTy).Contents (Elt F)) (src tgt : (⟨S850000, .i32⟩ : BufTy).Contents (Elt F)) (nrm : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (column tgt)
    (mulf (Host.gather gather_S50000x64_S850000x1_S850000x64_1_0_n_n_0_1_164 h (column (wrap src)))
      (broadcastInDim S850000x64 ![0, 1] bcast_S850000x1_S850000x64_0_1
        (broadcastInDim S850000x1 ![0] bcast_S850000_S850000x1_0 nrm)))

theorem aggregate_eq (h : (⟨S50000x64, .f32⟩ : BufTy).Contents (Elt F)) (e : (⟨S2x800000, .i32⟩ : BufTy).Contents (Elt F)) :
    aggregate h e = aggregateFrom h (sources e) (targets e) (edgeNorm e) := rfl

end Cert.ReferenceIdeal.Stages

end
-- ==== Proof.Product1.lean ====
/-
  The first tiled product: region 0 of the kernel program computes `x · W1`.

  Region 0 walks ten grid points.  At point `t` it fetches rows `5000·t … 5000·t + 4999` of the left array (all 128
  columns) and the whole right array, multiplies them into a zero accumulator, and writes the
  result back as rows `5000·t … 5000·t + 4999` of the output.  Over the extended reals a product into a zero accumulator is
  the plain sum over the contracted axis, `∑ k, y (r, k) · w (k, q)`, the change of float format of the two operands
  being the identity; a row of the output depends only on the same row of the left array, so each written block is the
  block of one whole-array function, and the ten blocks cover the output.  The whole-array function is the host's
  `dot_general` of the two arrays: the same sum.
-/
import proofs.«168623_j50723563766346_1_alg».proof.Proof.Gen.KernelIdeal.Frame
import proofs.«168623_j50723563766346_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The block indices of the windows at grid point `t`: the left array and the output move down one row tile per
    point, the other operand stays. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- Every row tile of the output is some grid point's. -/
theorem tile_onto : ∀ q : Fin 10, ∃ t : Fin cfg0.N, t.val = q.val :=
  (by decide +kernel : ∀ q : Fin 10, ∃ t : Fin grid0.N, t.val = q.val)

/-! ## The whole-array product at an index -/

local notation "dR" => Cert.ReferenceIdeal.dot_S50000x128_S128x64_S50000x64_1_0_0_1_n_n

/-- The host's product of a `[50000, 128]` array and a `[128, 64]` array. -/
def wholeProduct (y : S50000x128.Idx → EReal) (w : S128x64.Idx → EReal) : S50000x64.Idx → EReal :=
  Host.dotGeneral (F := Ideal) (φ₁ := .f32) (φ₂ := .f32) (dR) none y w

theorem ref_lhs_0 (i : S50000x64.Idx) (q : (dR).contr.Idx) : ((dR).lhsIdx i q 0).val = (i 0).val := by
  unfold DotDims.lhsIdx
  rw [dif_neg (show ¬(0 : Fin S50000x128.rank) ∈ (dR).lhsBatch by decide), dif_pos (show (0 : Fin S50000x128.rank) ∈ (dR).lhsNonContracting by decide)]
  rfl
theorem ref_lhs_1 (i : S50000x64.Idx) (q : (dR).contr.Idx) : ((dR).lhsIdx i q 1).val = (q ⟨0, by decide⟩).val :=
  (dR).lhsIdx_val_of_single rfl i q
theorem ref_rhs_0 (i : S50000x64.Idx) (q : (dR).contr.Idx) : ((dR).rhsIdx i q 0).val = (q ⟨0, by decide⟩).val :=
  (dR).rhsIdx_val_of_single rfl i q
theorem ref_rhs_1 (i : S50000x64.Idx) (q : (dR).contr.Idx) : ((dR).rhsIdx i q 1).val = (i 1).val := by
  unfold DotDims.rhsIdx
  rw [dif_neg (show ¬(1 : Fin S128x64.rank) ∈ (dR).rhsBatch by decide), dif_pos (show (1 : Fin S128x64.rank) ∈ (dR).rhsNonContracting by decide)]
  rfl

/-- Entry `(p, q)` of the whole product is `∑ k, y (p, k) · w (k, q)`. -/
theorem wholeProduct_apply (y : S50000x128.Idx → EReal) (w : S128x64.Idx → EReal) (p : Fin 50000) (q : Fin 64) :
    wholeProduct y w (ix2 p q) = ∑ k : Fin 128, y (ix2 p k) * w (ix2 k q) := by
  unfold wholeProduct
  simp only [Host.dotGeneral]
  rw [Ideal.dotGeneral_apply, ← Equiv.sum_comp (ValueIdx.contrEquiv1 (dR) 128 rfl rfl).symm]
  refine Finset.sum_congr rfl fun k _ => ?_
  have hk := ValueIdx.contrEquiv1_symm_val (dR) 128 rfl rfl k
  have el : (dR).lhsIdx (ix2 p q) ((ValueIdx.contrEquiv1 (dR) 128 rfl rfl).symm k) = ix2 p k := funext fun a => Fin.ext (by
    match a with
    | ⟨0, _⟩ => exact ref_lhs_0 _ _
    | ⟨1, _⟩ => exact (ref_lhs_1 _ _).trans hk)
  have er : (dR).rhsIdx (ix2 p q) ((ValueIdx.contrEquiv1 (dR) 128 rfl rfl).symm k) = ix2 k q := funext fun a => Fin.ext (by
    match a with
    | ⟨0, _⟩ => exact (ref_rhs_0 _ _).trans hk
    | ⟨1, _⟩ => exact ref_rhs_1 _ _)
  rw [el, er]

/-! ## One tile's product at an index -/

local notation "dK" => dot_S5000x128_S128x64_S5000x64_1_0_0_1_n_n

theorem lhs_0 (j : S5000x64.Idx) (q : (dK).contr.Idx) : ((dK).lhsIdx j q 0).val = (j 0).val := by
  unfold DotDims.lhsIdx
  rw [dif_neg (show ¬(0 : Fin S5000x128.rank) ∈ (dK).lhsBatch by decide), dif_pos (show (0 : Fin S5000x128.rank) ∈ (dK).lhsNonContracting by decide)]
  rfl
theorem lhs_1 (j : S5000x64.Idx) (q : (dK).contr.Idx) : ((dK).lhsIdx j q 1).val = (q ⟨0, by decide⟩).val :=
  (dK).lhsIdx_val_of_single rfl j q
theorem rhs_0 (j : S5000x64.Idx) (q : (dK).contr.Idx) : ((dK).rhsIdx j q 0).val = (q ⟨0, by decide⟩).val :=
  (dK).rhsIdx_val_of_single rfl j q
theorem rhs_1 (j : S5000x64.Idx) (q : (dK).contr.Idx) : ((dK).rhsIdx j q 1).val = (j 1).val := by
  unfold DotDims.rhsIdx
  rw [dif_neg (show ¬(1 : Fin S128x64.rank) ∈ (dK).rhsBatch by decide), dif_pos (show (1 : Fin S128x64.rank) ∈ (dK).rhsNonContracting by decide)]
  rfl

/-- The tile's matrix product at an index `(r, q)`: into the zero accumulator it is the sum over the contracted axis. -/
theorem tile_matmul (a : FVec Ideal S5000x128 .bf16) (b : FVec Ideal S128x64 .bf16) (r : Fin 5000) (q : Fin 64) :
    FloatOps.matmul (dK) none a b (constant S5000x64 .f32 0x00000000#32) (ix2 r q) = ∑ k : Fin 128, a (ix2 r k) * b (ix2 k q) := by
  rw [Ideal.matmul_constant_zero_apply, ← Equiv.sum_comp (ValueIdx.contrEquiv1 (dK) 128 rfl rfl).symm]
  refine Finset.sum_congr rfl fun k _ => ?_
  have hk := ValueIdx.contrEquiv1_symm_val (dK) 128 rfl rfl k
  have el : (dK).lhsIdx (ix2 r q) ((ValueIdx.contrEquiv1 (dK) 128 rfl rfl).symm k) = ix2 r k := funext fun a => Fin.ext (by
    match a with
    | ⟨0, _⟩ => exact lhs_0 _ _
    | ⟨1, _⟩ => exact (lhs_1 _ _).trans hk)
  have er : (dK).rhsIdx (ix2 r q) ((ValueIdx.contrEquiv1 (dK) 128 rfl rfl).symm k) = ix2 k q := funext fun a => Fin.ext (by
    match a with
    | ⟨0, _⟩ => exact (rhs_0 _ _).trans hk
    | ⟨1, _⟩ => exact rhs_1 _ _)
  rw [el, er]

/-- The body's arithmetic on one tile, read at an index `(r, q)`. -/
theorem tile_value (x0 : Vec Ideal S5000x128 .f32) (x1 : Vec Ideal S128x64 .f32) (r : Fin 5000) (q : Fin 64) :
    k0_pay1 (F := Ideal) x0 x1 (ix2 r q) = ∑ k : Fin 128, x0 (ix2 r k) * x1 (ix2 k q) := by
  unfold k0_pay1
  simp only [matmul]
  exact tile_matmul _ _ r q

/-! ## The tiles as blocks of the arrays the region finds -/

variable (V : (c : Dev nD) → (b : Ref sig .tc) → Buf (Elt Ideal) ((c : Thread nD τ).loc b))

/-- The left window's block at point `t` is rows `5000·t …` of the left array. -/
theorem left_tile (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : S50000x128.Idx → EReal) i := by
  obtain ⟨e0, e1, -, -, -, -⟩ := tile_index t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The right window's block at every point is the whole right array. -/
theorem right_whole (c : Dev nD) (t : Fin cfg0.N) (y : S128x64.Idx) :
    (iblk0 V c 1 t : Vec Ideal S128x64 .f32) y = (V c main_arg2 : S128x64.Idx → EReal) y := by
  obtain ⟨-, -, e2, e3, -, -⟩ := tile_index t
  unfold iblk0
  rw [View.read_apply]
  show V c main_arg2 _ = V c main_arg2 _
  congr 1
  funext a
  apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- The output's block at point `t` sits at rows `5000·t …`: where entry `(r, q)` of the block lands. -/
theorem lands (t : Fin cfg0.N) (r : Fin 5000) (q : Fin 64) :
    ∃ p : Fin 50000, p.val = 5000 * t.val + r.val ∧ ((cfg0.win 2).blk t).view.emb (ix2 r q) = (ix2 p q : S50000x64.Idx) := by
  obtain ⟨-, -, -, -, e4, e5⟩ := tile_index t
  have ht : t.val < 10 := by have h := t.isLt; have hN : cfg0.N = 10 := N_0; omega
  refine ⟨⟨5000 * t.val + r.val, by have := r.isLt; omega⟩, rfl, ?_⟩
  funext a
  apply Fin.ext
  match a with
  | ⟨0, _⟩ => show win0_2.index t 0 * 5000 + 1 * r.val = 5000 * t.val + r.val; rw [e4]; omega
  | ⟨1, _⟩ => show win0_2.index t 1 * 64 + 1 * q.val = q.val; rw [e5]; omega

/-- What point `t` writes back is block `t` of the whole-array function of the arrays the region found. -/
theorem written (c : Dev nD) (t : Fin cfg0.N) :
    (dat0 V c).flushed 2 t = ((cfg0.win 2).blk t).view.read (Elt Ideal) (wholeProduct (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  rw [View.read_apply]
  obtain ⟨r, q, rfl⟩ : ∃ (r : Fin 5000) (q : Fin 64), j = ix2 r q := ⟨j 0, j 1, eq_ix2 j⟩
  obtain ⟨p, hp, hemb⟩ := lands t r q
  rw [hemb, wholeProduct_apply]
  refine (tile_value _ _ r q).trans ?_
  refine Finset.sum_congr rfl fun k _ => ?_
  rw [left_tile V c t (ix2 r k) (ix2 p k) hp rfl, right_whole V c t (ix2 k q)]

/-- An index of the output is in point `t`'s block iff its row is in the point's row tile. -/
theorem mem_tile (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The ten row tiles cover the output. -/
theorem covered (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := tile_onto ⟨(i 0).val / 5000, by omega⟩
  have ht' : t.val = (i 0).val / 5000 := ht
  obtain ⟨-, -, -, -, e4, e5⟩ := tile_index t
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; rw [e4, ht']; omega
  | ⟨1, _⟩ => show win0_2.index t (1 : Fin 2) * 64 ≤ (i 1).val ∧ (i 1).val < win0_2.index t (1 : Fin 2) * 64 + 64; rw [e5]; omega

/-- THE REGION'S RESULT: after the ten points the output array is the whole-array function of the arrays the region
    found in its operand buffers. -/
theorem result (c : Dev nD) :
    (dat0 V c).arrAt 2 cfg0.N = wholeProduct (V c main_arg0) (V c main_arg2) :=
  (dat0 V c).arrAt_eq_of_cover 2 _ (fun t _ => written V c t) covered

end Cert.KernelIdeal.Product1

end
-- ==== Proof.Bias1.lean ====
/-
  The first bias stage: region 1 of the kernel program computes `max(agg1 + b1, 0)`.

  Region 1 walks ten grid points.  At point `t` it fetches rows `5000·t … 5000·t + 4999` of the aggregated array
  and the one-row bias array, adds the bias row to every fetched row, takes the maximum with zero, and writes the
  result back as the same rows of the output.  Entry `(r, q)` of the output depends on entry `(r, q)` of the
  aggregated array and entry `(0, q)` of the bias row only, so every written block is the block of one whole-array
  function, and the ten blocks cover the output.
-/
import proofs.«168623_j50723563766346_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias1

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The block indices of the three windows at grid point `t`: the aggregated array and the output move down one
    row tile per point, the bias row stays. -/
theorem tile_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- Every row tile of the output is some grid point's. -/
theorem tile_onto : ∀ q : Fin 10, ∃ t : Fin cfg1.N, t.val = q.val :=
  (by decide +kernel : ∀ q : Fin 10, ∃ t : Fin grid1.N, t.val = q.val)

/-- The whole-array function the region computes: the bias row added to every row, clamped below at zero. -/
def biasRelu (a : S50000x64.Idx → EReal) (b : S1x64.Idx → EReal) : S50000x64.Idx → EReal :=
  fun i => max (a i + b (ix2 (0 : Fin 1) (i 1))) 0

theorem biasRelu_apply (a : S50000x64.Idx → EReal) (b : S1x64.Idx → EReal) (i : S50000x64.Idx) :
    biasRelu a b i = max (a i + b (ix2 (0 : Fin 1) (i 1))) 0 := rfl

/-! ## One tile at an index -/

/-- The body's arithmetic on one tile, read at an index `(r, q)`: the fetched entry plus the bias row's entry `q`,
    clamped below at zero. -/
theorem tile_value (x0 : Vec Ideal S5000x64 .f32) (x1 : Vec Ideal S1x64 .f32) (r : Fin 5000) (q : Fin 64) :
    k1_pay1 (F := Ideal) x0 x1 (ix2 r q) = max (x0 (ix2 r q) + x1 (ix2 (0 : Fin 1) q)) 0 := by
  unfold k1_pay1
  simp only [shapeCast_self]
  show max (x0 (ix2 r q) + broadcastTo S5000x64 x1 broadcasts_S1x64_S5000x64 (ix2 r q)) (Ideal.ofBits .f32 0x00000000#32) = _
  rw [Ideal.ofBits_zero_f32]
  exact congrArg (fun z => max (x0 (ix2 r q) + z) 0) (broadcastTo_1b_ab_apply x1 broadcasts_S1x64_S5000x64 r q)

/-! ## The tiles as blocks of the arrays the region finds -/

variable (V : (c : Dev nD) → (b : Ref sig .tc) → Buf (Elt Ideal) ((c : Thread nD τ).loc b))

/-- The first window's block at point `t` is rows `5000·t …` of the aggregated array. -/
theorem rows_tile (c : Dev nD) (t : Fin cfg1.N) (y : S5000x64.Idx) (i : S50000x64.Idx)
    (h0 : (i 0).val = 5000 * t.val + (y 0).val) (h1 : (i 1).val = (y 1).val) :
    (iblk1 V c 0 t : Vec Ideal S5000x64 .f32) y = (V c main_v43 : S50000x64.Idx → EReal) i := by
  obtain ⟨e0, e1, -, -, -, -⟩ := tile_index t
  unfold iblk1
  rw [View.read_apply]
  show V c main_v43 _ = V c main_v43 _
  congr 1
  funext a
  apply Fin.ext
  match a with
  | ⟨0, _⟩ => show win1_0.index t 0 * 5000 + 1 * (y 0).val = (i 0).val; rw [e0, h0]; omega
  | ⟨1, _⟩ => show win1_0.index t 1 * 64 + 1 * (y 1).val = (i 1).val; rw [e1, h1]; omega

/-- The second window's block at every point is the whole bias row. -/
theorem row_whole (c : Dev nD) (t : Fin cfg1.N) (y : S1x64.Idx) :
    (iblk1 V c 1 t : Vec Ideal S1x64 .f32) y = (V c main_v44 : S1x64.Idx → EReal) y := by
  obtain ⟨-, -, e2, e3, -, -⟩ := tile_index t
  unfold iblk1
  rw [View.read_apply]
  show V c main_v44 _ = V c main_v44 _
  congr 1
  funext a
  apply Fin.ext
  match a with
  | ⟨0, _⟩ => show win1_1.index t 0 * 1 + 1 * (y 0).val = (y 0).val; rw [e2]; omega
  | ⟨1, _⟩ => show win1_1.index t 1 * 64 + 1 * (y 1).val = (y 1).val; rw [e3]; omega

/-- What point `t` writes back is block `t` of the whole-array function of the two arrays. -/
theorem written (c : Dev nD) (t : Fin cfg1.N) :
    (dat1 V c).flushed 2 t = ((cfg1.win 2).blk t).view.read (Elt Ideal) (biasRelu (V c main_v43) (V c main_v44)) := by
  obtain ⟨-, -, -, -, e4, e5⟩ := tile_index t
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  funext j
  rw [View.read_apply, biasRelu_apply]
  obtain ⟨r, q, rfl⟩ : ∃ (r : Fin 5000) (q : Fin 64), j = ix2 r q := ⟨j 0, j 1, eq_ix2 j⟩
  refine (tile_value _ _ r q).trans ?_
  have ha := rows_tile V c t (ix2 r q) (((cfg1.win 2).blk t).view.emb (ix2 r q))
    (by show win1_2.index t 0 * 5000 + 1 * r.val = 5000 * t.val + r.val; rw [e4]; omega)
    (by show win1_2.index t 1 * 64 + 1 * q.val = q.val; rw [e5]; omega)
  have hb := row_whole V c t (ix2 (0 : Fin 1) q)
  have hq : (ix2 (0 : Fin 1) q : S1x64.Idx) = ix2 (0 : Fin 1) ((((cfg1.win 2).blk t).view.emb (ix2 r q)) 1) := by
    funext a
    apply Fin.ext
    match a with
    | ⟨0, _⟩ => rfl
    | ⟨1, _⟩ => show q.val = win1_2.index t 1 * 64 + 1 * q.val; rw [e5]; omega
  rw [ha, hb, hq]
  rfl

/-- An index of the output is in point `t`'s block iff its row is in the point's row tile. -/
theorem mem_tile (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- The ten row tiles cover the output. -/
theorem covered (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := tile_onto ⟨(i 0).val / 5000, by omega⟩
  have ht' : t.val = (i 0).val / 5000 := ht
  obtain ⟨-, -, -, -, e4, e5⟩ := tile_index t
  refine ⟨t, flush1_2 t, ?_⟩
  rw [mem_tile]
  intro a
  match a with
  | ⟨0, _⟩ => show win1_2.index t (0 : Fin 2) * 5000 ≤ (i 0).val ∧ (i 0).val < win1_2.index t (0 : Fin 2) * 5000 + 5000; rw [e4, ht']; omega
  | ⟨1, _⟩ => show win1_2.index t (1 : Fin 2) * 64 ≤ (i 1).val ∧ (i 1).val < win1_2.index t (1 : Fin 2) * 64 + 64; rw [e5]; omega

/-- THE REGION'S RESULT: after the ten points the output array is the bias row added to every row of the
    aggregated array the region found, clamped below at zero. -/
theorem result (c : Dev nD) :
    (dat1 V c).arrAt 2 cfg1.N = biasRelu (V c main_v43) (V c main_v44) :=
  (dat1 V c).arrAt_eq_of_cover 2 _ (fun t _ => written V c t) covered

end Cert.KernelIdeal.Bias1

end
-- ==== Proof.Product2.lean ====
/-
  The second tiled product: region 2 of the kernel program computes `h1 · W2`.

  Region 2 walks ten grid points.  At point `t` it fetches rows `5000·t … 5000·t + 4999` of the left array (all 64
  columns) and the whole right array, multiplies them into a zero accumulator, and writes the
  result back as rows `5000·t … 5000·t + 4999` of the output.  Over the extended reals a product into a zero accumulator is
  the plain sum over the contracted axis, `∑ k, y (r, k) · w (k, q)`, the change of float format of the two operands
  being the identity; a row of the output depends only on the same row of the left array, so each written block is the
  block of one whole-array function, and the ten blocks cover the output.  The whole-array function is the host's
  `dot_general` of the two arrays: the same sum.
-/
import proofs.«168623_j50723563766346_1_alg».proof.Proof.Gen.KernelIdeal.Frame
import proofs.«168623_j50723563766346_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The block indices of the windows at grid point `t`: the left array and the output move down one row tile per
    point, the other operand stays. -/
theorem tile_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- Every row tile of the output is some grid point's. -/
theorem tile_onto : ∀ q : Fin 10, ∃ t : Fin cfg2.N, t.val = q.val :=
  (by decide +kernel : ∀ q : Fin 10, ∃ t : Fin grid2.N, t.val = q.val)

/-! ## The whole-array product at an index -/

local notation "dR" => Cert.ReferenceIdeal.dot_S50000x64_S64x64_S50000x64_1_0_0_1_n_n

/-- The host's product of a `[50000, 64]` array and a `[64, 64]` array. -/
def wholeProduct (y : S50000x64.Idx → EReal) (w : S64x64.Idx → EReal) : S50000x64.Idx → EReal :=
  Host.dotGeneral (F := Ideal) (φ₁ := .f32) (φ₂ := .f32) (dR) none y w

theorem ref_lhs_0 (i : S50000x64.Idx) (q : (dR).contr.Idx) : ((dR).lhsIdx i q 0).val = (i 0).val := by
  unfold DotDims.lhsIdx
  rw [dif_neg (show ¬(0 : Fin S50000x64.rank) ∈ (dR).lhsBatch by decide), dif_pos (show (0 : Fin S50000x64.rank) ∈ (dR).lhsNonContracting by decide)]
  rfl
theorem ref_lhs_1 (i : S50000x64.Idx) (q : (dR).contr.Idx) : ((dR).lhsIdx i q 1).val = (q ⟨0, by decide⟩).val :=
  (dR).lhsIdx_val_of_single rfl i q
theorem ref_rhs_0 (i : S50000x64.Idx) (q : (dR).contr.Idx) : ((dR).rhsIdx i q 0).val = (q ⟨0, by decide⟩).val :=
  (dR).rhsIdx_val_of_single rfl i q
theorem ref_rhs_1 (i : S50000x64.Idx) (q : (dR).contr.Idx) : ((dR).rhsIdx i q 1).val = (i 1).val := by
  unfold DotDims.rhsIdx
  rw [dif_neg (show ¬(1 : Fin S64x64.rank) ∈ (dR).rhsBatch by decide), dif_pos (show (1 : Fin S64x64.rank) ∈ (dR).rhsNonContracting by decide)]
  rfl

/-- Entry `(p, q)` of the whole product is `∑ k, y (p, k) · w (k, q)`. -/
theorem wholeProduct_apply (y : S50000x64.Idx → EReal) (w : S64x64.Idx → EReal) (p : Fin 50000) (q : Fin 64) :
    wholeProduct y w (ix2 p q) = ∑ k : Fin 64, y (ix2 p k) * w (ix2 k q) := by
  unfold wholeProduct
  simp only [Host.dotGeneral]
  rw [Ideal.dotGeneral_apply, ← Equiv.sum_comp (ValueIdx.contrEquiv1 (dR) 64 rfl rfl).symm]
  refine Finset.sum_congr rfl fun k _ => ?_
  have hk := ValueIdx.contrEquiv1_symm_val (dR) 64 rfl rfl k
  have el : (dR).lhsIdx (ix2 p q) ((ValueIdx.contrEquiv1 (dR) 64 rfl rfl).symm k) = ix2 p k := funext fun a => Fin.ext (by
    match a with
    | ⟨0, _⟩ => exact ref_lhs_0 _ _
    | ⟨1, _⟩ => exact (ref_lhs_1 _ _).trans hk)
  have er : (dR).rhsIdx (ix2 p q) ((ValueIdx.contrEquiv1 (dR) 64 rfl rfl).symm k) = ix2 k q := funext fun a => Fin.ext (by
    match a with
    | ⟨0, _⟩ => exact (ref_rhs_0 _ _).trans hk
    | ⟨1, _⟩ => exact ref_rhs_1 _ _)
  rw [el, er]

/-! ## One tile's product at an index -/

local notation "dK" => dot_S5000x64_S64x64_S5000x64_1_0_0_1_n_n

theorem lhs_0 (j : S5000x64.Idx) (q : (dK).contr.Idx) : ((dK).lhsIdx j q 0).val = (j 0).val := by
  unfold DotDims.lhsIdx
  rw [dif_neg (show ¬(0 : Fin S5000x64.rank) ∈ (dK).lhsBatch by decide), dif_pos (show (0 : Fin S5000x64.rank) ∈ (dK).lhsNonContracting by decide)]
  rfl
theorem lhs_1 (j : S5000x64.Idx) (q : (dK).contr.Idx) : ((dK).lhsIdx j q 1).val = (q ⟨0, by decide⟩).val :=
  (dK).lhsIdx_val_of_single rfl j q
theorem rhs_0 (j : S5000x64.Idx) (q : (dK).contr.Idx) : ((dK).rhsIdx j q 0).val = (q ⟨0, by decide⟩).val :=
  (dK).rhsIdx_val_of_single rfl j q
theorem rhs_1 (j : S5000x64.Idx) (q : (dK).contr.Idx) : ((dK).rhsIdx j q 1).val = (j 1).val := by
  unfold DotDims.rhsIdx
  rw [dif_neg (show ¬(1 : Fin S64x64.rank) ∈ (dK).rhsBatch by decide), dif_pos (show (1 : Fin S64x64.rank) ∈ (dK).rhsNonContracting by decide)]
  rfl

/-- The tile's matrix product at an index `(r, q)`: into the zero accumulator it is the sum over the contracted axis. -/
theorem tile_matmul (a : FVec Ideal S5000x64 .bf16) (b : FVec Ideal S64x64 .bf16) (r : Fin 5000) (q : Fin 64) :
    FloatOps.matmul (dK) none a b (constant S5000x64 .f32 0x00000000#32) (ix2 r q) = ∑ k : Fin 64, a (ix2 r k) * b (ix2 k q) := by
  rw [Ideal.matmul_constant_zero_apply, ← Equiv.sum_comp (ValueIdx.contrEquiv1 (dK) 64 rfl rfl).symm]
  refine Finset.sum_congr rfl fun k _ => ?_
  have hk := ValueIdx.contrEquiv1_symm_val (dK) 64 rfl rfl k
  have el : (dK).lhsIdx (ix2 r q) ((ValueIdx.contrEquiv1 (dK) 64 rfl rfl).symm k) = ix2 r k := funext fun a => Fin.ext (by
    match a with
    | ⟨0, _⟩ => exact lhs_0 _ _
    | ⟨1, _⟩ => exact (lhs_1 _ _).trans hk)
  have er : (dK).rhsIdx (ix2 r q) ((ValueIdx.contrEquiv1 (dK) 64 rfl rfl).symm k) = ix2 k q := funext fun a => Fin.ext (by
    match a with
    | ⟨0, _⟩ => exact (rhs_0 _ _).trans hk
    | ⟨1, _⟩ => exact rhs_1 _ _)
  rw [el, er]

/-- The body's arithmetic on one tile, read at an index `(r, q)`. -/
theorem tile_value (x0 : Vec Ideal S5000x64 .f32) (x1 : Vec Ideal S64x64 .f32) (r : Fin 5000) (q : Fin 64) :
    k2_pay1 (F := Ideal) x0 x1 (ix2 r q) = ∑ k : Fin 64, x0 (ix2 r k) * x1 (ix2 k q) := by
  unfold k2_pay1
  simp only [shapeCast_self]
  simp only [matmul]
  exact tile_matmul _ _ r q

/-! ## The tiles as blocks of the arrays the region finds -/

variable (V : (c : Dev nD) → (b : Ref sig .tc) → Buf (Elt Ideal) ((c : Thread nD τ).loc b))

/-- The left window's block at point `t` is rows `5000·t …` of the left array. -/
theorem left_tile (c : Dev nD) (t : Fin cfg2.N) (y : S5000x64.Idx) (i : S50000x64.Idx)
    (h0 : (i 0).val = 5000 * t.val + (y 0).val) (h1 : (i 1).val = (y 1).val) :
    (iblk2 V c 0 t : Vec Ideal S5000x64 .f32) y = (V c main_v45 : S50000x64.Idx → EReal) i := by
  obtain ⟨e0, e1, -, -, -, -⟩ := tile_index t
  unfold iblk2
  rw [View.read_apply]
  show V c main_v45 _ = V c main_v45 _
  congr 1
  funext a
  apply Fin.ext
  match a with
  | ⟨0, _⟩ => show win2_0.index t 0 * 5000 + 1 * (y 0).val = (i 0).val; rw [e0, h0]; omega
  | ⟨1, _⟩ => show win2_0.index t 1 * 64 + 1 * (y 1).val = (i 1).val; rw [e1, h1]; omega

/-- The right window's block at every point is the whole right array. -/
theorem right_whole (c : Dev nD) (t : Fin cfg2.N) (y : S64x64.Idx) :
    (iblk2 V c 1 t : Vec Ideal S64x64 .f32) y = (V c main_arg4 : S64x64.Idx → EReal) y := by
  obtain ⟨-, -, e2, e3, -, -⟩ := tile_index t
  unfold iblk2
  rw [View.read_apply]
  show V c main_arg4 _ = V c main_arg4 _
  congr 1
  funext a
  apply Fin.ext
  match a with
  | ⟨0, _⟩ => show win2_1.index t 0 * 64 + 1 * (y 0).val = (y 0).val; rw [e2]; omega
  | ⟨1, _⟩ => show win2_1.index t 1 * 64 + 1 * (y 1).val = (y 1).val; rw [e3]; omega

/-- The output's block at point `t` sits at rows `5000·t …`: where entry `(r, q)` of the block lands. -/
theorem lands (t : Fin cfg2.N) (r : Fin 5000) (q : Fin 64) :
    ∃ p : Fin 50000, p.val = 5000 * t.val + r.val ∧ ((cfg2.win 2).blk t).view.emb (ix2 r q) = (ix2 p q : S50000x64.Idx) := by
  obtain ⟨-, -, -, -, e4, e5⟩ := tile_index t
  have ht : t.val < 10 := by have h := t.isLt; have hN : cfg2.N = 10 := N_2; omega
  refine ⟨⟨5000 * t.val + r.val, by have := r.isLt; omega⟩, rfl, ?_⟩
  funext a
  apply Fin.ext
  match a with
  | ⟨0, _⟩ => show win2_2.index t 0 * 5000 + 1 * r.val = 5000 * t.val + r.val; rw [e4]; omega
  | ⟨1, _⟩ => show win2_2.index t 1 * 64 + 1 * q.val = q.val; rw [e5]; omega

/-- What point `t` writes back is block `t` of the whole-array function of the arrays the region found. -/
theorem written (c : Dev nD) (t : Fin cfg2.N) :
    (dat2 V c).flushed 2 t = ((cfg2.win 2).blk t).view.read (Elt Ideal) (wholeProduct (V c main_v45) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  funext j
  rw [View.read_apply]
  obtain ⟨r, q, rfl⟩ : ∃ (r : Fin 5000) (q : Fin 64), j = ix2 r q := ⟨j 0, j 1, eq_ix2 j⟩
  obtain ⟨p, hp, hemb⟩ := lands t r q
  rw [hemb, wholeProduct_apply]
  refine (tile_value _ _ r q).trans ?_
  refine Finset.sum_congr rfl fun k _ => ?_
  rw [left_tile V c t (ix2 r k) (ix2 p k) hp rfl, right_whole V c t (ix2 k q)]

/-- An index of the output is in point `t`'s block iff its row is in the point's row tile. -/
theorem mem_tile (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The ten row tiles cover the output. -/
theorem covered (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := tile_onto ⟨(i 0).val / 5000, by omega⟩
  have ht' : t.val = (i 0).val / 5000 := ht
  obtain ⟨-, -, -, -, e4, e5⟩ := tile_index t
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; rw [e4, ht']; omega
  | ⟨1, _⟩ => show win2_2.index t (1 : Fin 2) * 64 ≤ (i 1).val ∧ (i 1).val < win2_2.index t (1 : Fin 2) * 64 + 64; rw [e5]; omega

/-- THE REGION'S RESULT: after the ten points the output array is the whole-array function of the arrays the region
    found in its operand buffers. -/
theorem result (c : Dev nD) :
    (dat2 V c).arrAt 2 cfg2.N = wholeProduct (V c main_v45) (V c main_arg4) :=
  (dat2 V c).arrAt_eq_of_cover 2 _ (fun t _ => written V c t) covered

end Cert.KernelIdeal.Product2

end
-- ==== Proof.Bias2.lean ====
/-
  The second bias stage: region 3 of the kernel program computes `max(agg2 + b2, 0)`.

  Region 3 walks ten grid points.  At point `t` it fetches rows `5000·t … 5000·t + 4999` of the aggregated array
  and the one-row bias array, adds the bias row to every fetched row, takes the maximum with zero, and writes the
  result back as the same rows of the output.  Entry `(r, q)` of the output depends on entry `(r, q)` of the
  aggregated array and entry `(0, q)` of the bias row only, so every written block is the block of one whole-array
  function, and the ten blocks cover the output.
-/
import proofs.«168623_j50723563766346_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias2

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The block indices of the three windows at grid point `t`: the aggregated array and the output move down one
    row tile per point, the bias row stays. -/
theorem tile_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0)

/-- Every row tile of the output is some grid point's. -/
theorem tile_onto : ∀ q : Fin 10, ∃ t : Fin cfg3.N, t.val = q.val :=
  (by decide +kernel : ∀ q : Fin 10, ∃ t : Fin grid3.N, t.val = q.val)

/-- The whole-array function the region computes: the bias row added to every row, clamped below at zero. -/
def biasRelu (a : S50000x64.Idx → EReal) (b : S1x64.Idx → EReal) : S50000x64.Idx → EReal :=
  fun i => max (a i + b (ix2 (0 : Fin 1) (i 1))) 0

theorem biasRelu_apply (a : S50000x64.Idx → EReal) (b : S1x64.Idx → EReal) (i : S50000x64.Idx) :
    biasRelu a b i = max (a i + b (ix2 (0 : Fin 1) (i 1))) 0 := rfl

/-! ## One tile at an index -/

/-- The body's arithmetic on one tile, read at an index `(r, q)`: the fetched entry plus the bias row's entry `q`,
    clamped below at zero. -/
theorem tile_value (x0 : Vec Ideal S5000x64 .f32) (x1 : Vec Ideal S1x64 .f32) (r : Fin 5000) (q : Fin 64) :
    k3_pay1 (F := Ideal) x0 x1 (ix2 r q) = max (x0 (ix2 r q) + x1 (ix2 (0 : Fin 1) q)) 0 := by
  unfold k3_pay1
  simp only [shapeCast_self]
  show max (x0 (ix2 r q) + broadcastTo S5000x64 x1 broadcasts_S1x64_S5000x64 (ix2 r q)) (Ideal.ofBits .f32 0x00000000#32) = _
  rw [Ideal.ofBits_zero_f32]
  exact congrArg (fun z => max (x0 (ix2 r q) + z) 0) (broadcastTo_1b_ab_apply x1 broadcasts_S1x64_S5000x64 r q)

/-! ## The tiles as blocks of the arrays the region finds -/

variable (V : (c : Dev nD) → (b : Ref sig .tc) → Buf (Elt Ideal) ((c : Thread nD τ).loc b))

/-- The first window's block at point `t` is rows `5000·t …` of the aggregated array. -/
theorem rows_tile (c : Dev nD) (t : Fin cfg3.N) (y : S5000x64.Idx) (i : S50000x64.Idx)
    (h0 : (i 0).val = 5000 * t.val + (y 0).val) (h1 : (i 1).val = (y 1).val) :
    (iblk3 V c 0 t : Vec Ideal S5000x64 .f32) y = (V c main_v59 : S50000x64.Idx → EReal) i := by
  obtain ⟨e0, e1, -, -, -, -⟩ := tile_index t
  unfold iblk3
  rw [View.read_apply]
  show V c main_v59 _ = V c main_v59 _
  congr 1
  funext a
  apply Fin.ext
  match a with
  | ⟨0, _⟩ => show win3_0.index t 0 * 5000 + 1 * (y 0).val = (i 0).val; rw [e0, h0]; omega
  | ⟨1, _⟩ => show win3_0.index t 1 * 64 + 1 * (y 1).val = (i 1).val; rw [e1, h1]; omega

/-- The second window's block at every point is the whole bias row. -/
theorem row_whole (c : Dev nD) (t : Fin cfg3.N) (y : S1x64.Idx) :
    (iblk3 V c 1 t : Vec Ideal S1x64 .f32) y = (V c main_v60 : S1x64.Idx → EReal) y := by
  obtain ⟨-, -, e2, e3, -, -⟩ := tile_index t
  unfold iblk3
  rw [View.read_apply]
  show V c main_v60 _ = V c main_v60 _
  congr 1
  funext a
  apply Fin.ext
  match a with
  | ⟨0, _⟩ => show win3_1.index t 0 * 1 + 1 * (y 0).val = (y 0).val; rw [e2]; omega
  | ⟨1, _⟩ => show win3_1.index t 1 * 64 + 1 * (y 1).val = (y 1).val; rw [e3]; omega

/-- What point `t` writes back is block `t` of the whole-array function of the two arrays. -/
theorem written (c : Dev nD) (t : Fin cfg3.N) :
    (dat3 V c).flushed 2 t = ((cfg3.win 2).blk t).view.read (Elt Ideal) (biasRelu (V c main_v59) (V c main_v60)) := by
  obtain ⟨-, -, -, -, e4, e5⟩ := tile_index t
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  funext j
  rw [View.read_apply, biasRelu_apply]
  obtain ⟨r, q, rfl⟩ : ∃ (r : Fin 5000) (q : Fin 64), j = ix2 r q := ⟨j 0, j 1, eq_ix2 j⟩
  refine (tile_value _ _ r q).trans ?_
  have ha := rows_tile V c t (ix2 r q) (((cfg3.win 2).blk t).view.emb (ix2 r q))
    (by show win3_2.index t 0 * 5000 + 1 * r.val = 5000 * t.val + r.val; rw [e4]; omega)
    (by show win3_2.index t 1 * 64 + 1 * q.val = q.val; rw [e5]; omega)
  have hb := row_whole V c t (ix2 (0 : Fin 1) q)
  have hq : (ix2 (0 : Fin 1) q : S1x64.Idx) = ix2 (0 : Fin 1) ((((cfg3.win 2).blk t).view.emb (ix2 r q)) 1) := by
    funext a
    apply Fin.ext
    match a with
    | ⟨0, _⟩ => rfl
    | ⟨1, _⟩ => show q.val = win3_2.index t 1 * 64 + 1 * q.val; rw [e5]; omega
  rw [ha, hb, hq]
  rfl

/-- An index of the output is in point `t`'s block iff its row is in the point's row tile. -/
theorem mem_tile (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The ten row tiles cover the output. -/
theorem covered (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := tile_onto ⟨(i 0).val / 5000, by omega⟩
  have ht' : t.val = (i 0).val / 5000 := ht
  obtain ⟨-, -, -, -, e4, e5⟩ := tile_index t
  refine ⟨t, flush3_2 t, ?_⟩
  rw [mem_tile]
  intro a
  match a with
  | ⟨0, _⟩ => show win3_2.index t (0 : Fin 2) * 5000 ≤ (i 0).val ∧ (i 0).val < win3_2.index t (0 : Fin 2) * 5000 + 5000; rw [e4, ht']; omega
  | ⟨1, _⟩ => show win3_2.index t (1 : Fin 2) * 64 ≤ (i 1).val ∧ (i 1).val < win3_2.index t (1 : Fin 2) * 64 + 64; rw [e5]; omega

/-- THE REGION'S RESULT: after the ten points the output array is the bias row added to every row of the
    aggregated array the region found, clamped below at zero. -/
theorem result (c : Dev nD) :
    (dat3 V c).arrAt 2 cfg3.N = biasRelu (V c main_v59) (V c main_v60) :=
  (dat3 V c).arrAt_eq_of_cover 2 _ (fun t _ => written V c t) covered

end Cert.KernelIdeal.Bias2

end
-- ==== Proof.Logits.lean ====
/-
  The last tiled product: region 4 of the kernel program computes `h2 · Wl + bl`.

  Region 4 walks ten grid points.  At point `t` it fetches rows `5000·t … 5000·t + 4999` of the left array (all 64
  columns) and the whole right array and the one-row bias array, multiplies them into a zero accumulator, adds the bias row to every row of the product, and writes the
  result back as rows `5000·t … 5000·t + 4999` of the output.  Over the extended reals a product into a zero accumulator is
  the plain sum over the contracted axis, `∑ k, y (r, k) · w (k, q)`, the change of float format of the two operands
  being the identity; a row of the output depends only on the same row of the left array, so each written block is the
  block of one whole-array function, and the ten blocks cover the output.  The whole-array function is the host's
  `dot_general` of the two arrays with the bias row added to every row: the same sum.
-/
import proofs.«168623_j50723563766346_1_alg».proof.Proof.Gen.KernelIdeal.Frame
import proofs.«168623_j50723563766346_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Logits

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The block indices of the windows at grid point `t`: the left array and the output move down one row tile per
    point, the other operands stay. -/
theorem tile_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0)

/-- Every row tile of the output is some grid point's. -/
theorem tile_onto : ∀ q : Fin 10, ∃ t : Fin cfg4.N, t.val = q.val :=
  (by decide +kernel : ∀ q : Fin 10, ∃ t : Fin grid4.N, t.val = q.val)

/-! ## The whole-array product at an index -/

local notation "dR" => Cert.ReferenceIdeal.dot_S50000x64_S64x2_S50000x2_1_0_0_1_n_n

/-- The host's product of a `[50000, 64]` array and a `[64, 2]` array. -/
def wholeProduct (y : S50000x64.Idx → EReal) (w : S64x2.Idx → EReal) : S50000x2.Idx → EReal :=
  Host.dotGeneral (F := Ideal) (φ₁ := .f32) (φ₂ := .f32) (dR) none y w

theorem ref_lhs_0 (i : S50000x2.Idx) (q : (dR).contr.Idx) : ((dR).lhsIdx i q 0).val = (i 0).val := by
  unfold DotDims.lhsIdx
  rw [dif_neg (show ¬(0 : Fin S50000x64.rank) ∈ (dR).lhsBatch by decide), dif_pos (show (0 : Fin S50000x64.rank) ∈ (dR).lhsNonContracting by decide)]
  rfl
theorem ref_lhs_1 (i : S50000x2.Idx) (q : (dR).contr.Idx) : ((dR).lhsIdx i q 1).val = (q ⟨0, by decide⟩).val :=
  (dR).lhsIdx_val_of_single rfl i q
theorem ref_rhs_0 (i : S50000x2.Idx) (q : (dR).contr.Idx) : ((dR).rhsIdx i q 0).val = (q ⟨0, by decide⟩).val :=
  (dR).rhsIdx_val_of_single rfl i q
theorem ref_rhs_1 (i : S50000x2.Idx) (q : (dR).contr.Idx) : ((dR).rhsIdx i q 1).val = (i 1).val := by
  unfold DotDims.rhsIdx
  rw [dif_neg (show ¬(1 : Fin S64x2.rank) ∈ (dR).rhsBatch by decide), dif_pos (show (1 : Fin S64x2.rank) ∈ (dR).rhsNonContracting by decide)]
  rfl

/-- Entry `(p, q)` of the whole product is `∑ k, y (p, k) · w (k, q)`. -/
theorem wholeProduct_apply (y : S50000x64.Idx → EReal) (w : S64x2.Idx → EReal) (p : Fin 50000) (q : Fin 2) :
    wholeProduct y w (ix2 p q) = ∑ k : Fin 64, y (ix2 p k) * w (ix2 k q) := by
  unfold wholeProduct
  simp only [Host.dotGeneral]
  rw [Ideal.dotGeneral_apply, ← Equiv.sum_comp (ValueIdx.contrEquiv1 (dR) 64 rfl rfl).symm]
  refine Finset.sum_congr rfl fun k _ => ?_
  have hk := ValueIdx.contrEquiv1_symm_val (dR) 64 rfl rfl k
  have el : (dR).lhsIdx (ix2 p q) ((ValueIdx.contrEquiv1 (dR) 64 rfl rfl).symm k) = ix2 p k := funext fun a => Fin.ext (by
    match a with
    | ⟨0, _⟩ => exact ref_lhs_0 _ _
    | ⟨1, _⟩ => exact (ref_lhs_1 _ _).trans hk)
  have er : (dR).rhsIdx (ix2 p q) ((ValueIdx.contrEquiv1 (dR) 64 rfl rfl).symm k) = ix2 k q := funext fun a => Fin.ext (by
    match a with
    | ⟨0, _⟩ => exact (ref_rhs_0 _ _).trans hk
    | ⟨1, _⟩ => exact ref_rhs_1 _ _)
  rw [el, er]

/-- The whole-array function the region computes: the product with the bias row added to every row. -/
def productBias (y : S50000x64.Idx → EReal) (w : S64x2.Idx → EReal) (b : S1x2.Idx → EReal) : S50000x2.Idx → EReal :=
  fun i => wholeProduct y w i + b (ix2 (0 : Fin 1) (i 1))

theorem productBias_apply (y : S50000x64.Idx → EReal) (w : S64x2.Idx → EReal) (b : S1x2.Idx → EReal) (p : Fin 50000) (q : Fin 2) :
    productBias y w b (ix2 p q) = (∑ k : Fin 64, y (ix2 p k) * w (ix2 k q)) + b (ix2 (0 : Fin 1) q) := by
  unfold productBias
  rw [wholeProduct_apply]

/-! ## One tile's product at an index -/

local notation "dK" => dot_S5000x64_S64x2_S5000x2_1_0_0_1_n_n

theorem lhs_0 (j : S5000x2.Idx) (q : (dK).contr.Idx) : ((dK).lhsIdx j q 0).val = (j 0).val := by
  unfold DotDims.lhsIdx
  rw [dif_neg (show ¬(0 : Fin S5000x64.rank) ∈ (dK).lhsBatch by decide), dif_pos (show (0 : Fin S5000x64.rank) ∈ (dK).lhsNonContracting by decide)]
  rfl
theorem lhs_1 (j : S5000x2.Idx) (q : (dK).contr.Idx) : ((dK).lhsIdx j q 1).val = (q ⟨0, by decide⟩).val :=
  (dK).lhsIdx_val_of_single rfl j q
theorem rhs_0 (j : S5000x2.Idx) (q : (dK).contr.Idx) : ((dK).rhsIdx j q 0).val = (q ⟨0, by decide⟩).val :=
  (dK).rhsIdx_val_of_single rfl j q
theorem rhs_1 (j : S5000x2.Idx) (q : (dK).contr.Idx) : ((dK).rhsIdx j q 1).val = (j 1).val := by
  unfold DotDims.rhsIdx
  rw [dif_neg (show ¬(1 : Fin S64x2.rank) ∈ (dK).rhsBatch by decide), dif_pos (show (1 : Fin S64x2.rank) ∈ (dK).rhsNonContracting by decide)]
  rfl

/-- The tile's matrix product at an index `(r, q)`: into the zero accumulator it is the sum over the contracted axis. -/
theorem tile_matmul (a : FVec Ideal S5000x64 .bf16) (b : FVec Ideal S64x2 .bf16) (r : Fin 5000) (q : Fin 2) :
    FloatOps.matmul (dK) none a b (constant S5000x2 .f32 0x00000000#32) (ix2 r q) = ∑ k : Fin 64, a (ix2 r k) * b (ix2 k q) := by
  rw [Ideal.matmul_constant_zero_apply, ← Equiv.sum_comp (ValueIdx.contrEquiv1 (dK) 64 rfl rfl).symm]
  refine Finset.sum_congr rfl fun k _ => ?_
  have hk := ValueIdx.contrEquiv1_symm_val (dK) 64 rfl rfl k
  have el : (dK).lhsIdx (ix2 r q) ((ValueIdx.contrEquiv1 (dK) 64 rfl rfl).symm k) = ix2 r k := funext fun a => Fin.ext (by
    match a with
    | ⟨0, _⟩ => exact lhs_0 _ _
    | ⟨1, _⟩ => exact (lhs_1 _ _).trans hk)
  have er : (dK).rhsIdx (ix2 r q) ((ValueIdx.contrEquiv1 (dK) 64 rfl rfl).symm k) = ix2 k q := funext fun a => Fin.ext (by
    match a with
    | ⟨0, _⟩ => exact (rhs_0 _ _).trans hk
    | ⟨1, _⟩ => exact rhs_1 _ _)
  rw [el, er]

/-- The body's arithmetic on one tile, read at an index `(r, q)`. -/
theorem tile_value (x0 : Vec Ideal S5000x64 .f32) (x1 : Vec Ideal S64x2 .f32) (x2 : Vec Ideal S1x2 .f32) (r : Fin 5000) (q : Fin 2) :
    k4_pay1 (F := Ideal) x0 x1 x2 (ix2 r q) = (∑ k : Fin 64, x0 (ix2 r k) * x1 (ix2 k q)) + x2 (ix2 (0 : Fin 1) q) := by
  unfold k4_pay1
  simp only [shapeCast_self]
  simp only [matmul]
  exact congrArg₂ (· + ·) (tile_matmul _ _ r q) (broadcastTo_1b_ab_apply x2 broadcasts_S1x2_S5000x2 r q)

/-! ## The tiles as blocks of the arrays the region finds -/

variable (V : (c : Dev nD) → (b : Ref sig .tc) → Buf (Elt Ideal) ((c : Thread nD τ).loc b))

/-- The left window's block at point `t` is rows `5000·t …` of the left array. -/
theorem left_tile (c : Dev nD) (t : Fin cfg4.N) (y : S5000x64.Idx) (i : S50000x64.Idx)
    (h0 : (i 0).val = 5000 * t.val + (y 0).val) (h1 : (i 1).val = (y 1).val) :
    (iblk4 V c 0 t : Vec Ideal S5000x64 .f32) y = (V c main_v61 : S50000x64.Idx → EReal) i := by
  obtain ⟨e0, e1, -, -, -, -, -, -⟩ := tile_index t
  unfold iblk4
  rw [View.read_apply]
  show V c main_v61 _ = V c main_v61 _
  congr 1
  funext a
  apply Fin.ext
  match a with
  | ⟨0, _⟩ => show win4_0.index t 0 * 5000 + 1 * (y 0).val = (i 0).val; rw [e0, h0]; omega
  | ⟨1, _⟩ => show win4_0.index t 1 * 64 + 1 * (y 1).val = (i 1).val; rw [e1, h1]; omega

/-- The right window's block at every point is the whole right array. -/
theorem right_whole (c : Dev nD) (t : Fin cfg4.N) (y : S64x2.Idx) :
    (iblk4 V c 1 t : Vec Ideal S64x2 .f32) y = (V c main_arg6 : S64x2.Idx → EReal) y := by
  obtain ⟨-, -, e2, e3, -, -, -, -⟩ := tile_index t
  unfold iblk4
  rw [View.read_apply]
  show V c main_arg6 _ = V c main_arg6 _
  congr 1
  funext a
  apply Fin.ext
  match a with
  | ⟨0, _⟩ => show win4_1.index t 0 * 64 + 1 * (y 0).val = (y 0).val; rw [e2]; omega
  | ⟨1, _⟩ => show win4_1.index t 1 * 2 + 1 * (y 1).val = (y 1).val; rw [e3]; omega

/-- The bias window's block at every point is the whole bias row. -/
theorem row_whole (c : Dev nD) (t : Fin cfg4.N) (y : S1x2.Idx) :
    (iblk4 V c 2 t : Vec Ideal S1x2 .f32) y = (V c main_v62 : S1x2.Idx → EReal) y := by
  obtain ⟨-, -, -, -, e6, e7, -, -⟩ := tile_index t
  unfold iblk4
  rw [View.read_apply]
  show V c main_v62 _ = V c main_v62 _
  congr 1
  funext a
  apply Fin.ext
  match a with
  | ⟨0, _⟩ => show win4_2.index t 0 * 1 + 1 * (y 0).val = (y 0).val; rw [e6]; omega
  | ⟨1, _⟩ => show win4_2.index t 1 * 2 + 1 * (y 1).val = (y 1).val; rw [e7]; omega

/-- The output's block at point `t` sits at rows `5000·t …`: where entry `(r, q)` of the block lands. -/
theorem lands (t : Fin cfg4.N) (r : Fin 5000) (q : Fin 2) :
    ∃ p : Fin 50000, p.val = 5000 * t.val + r.val ∧ ((cfg4.win 3).blk t).view.emb (ix2 r q) = (ix2 p q : S50000x2.Idx) := by
  obtain ⟨-, -, -, -, -, -, e4, e5⟩ := tile_index t
  have ht : t.val < 10 := by have h := t.isLt; have hN : cfg4.N = 10 := N_4; omega
  refine ⟨⟨5000 * t.val + r.val, by have := r.isLt; omega⟩, rfl, ?_⟩
  funext a
  apply Fin.ext
  match a with
  | ⟨0, _⟩ => show win4_3.index t 0 * 5000 + 1 * r.val = 5000 * t.val + r.val; rw [e4]; omega
  | ⟨1, _⟩ => show win4_3.index t 1 * 2 + 1 * q.val = q.val; rw [e5]; omega

/-- What point `t` writes back is block `t` of the whole-array function of the arrays the region found. -/
theorem written (c : Dev nD) (t : Fin cfg4.N) :
    (dat4 V c).flushed 3 t = ((cfg4.win 3).blk t).view.read (Elt Ideal) (productBias (V c main_v61) (V c main_arg6) (V c main_v62)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x2) hz, View.ld_unit_zero (S := S1x2) hz]
  funext j
  rw [View.read_apply]
  obtain ⟨r, q, rfl⟩ : ∃ (r : Fin 5000) (q : Fin 2), j = ix2 r q := ⟨j 0, j 1, eq_ix2 j⟩
  obtain ⟨p, hp, hemb⟩ := lands t r q
  rw [hemb, productBias_apply]
  refine (tile_value _ _ _ r q).trans ?_
  refine congrArg₂ (· + ·) (Finset.sum_congr rfl fun k _ => ?_) (row_whole V c t (ix2 (0 : Fin 1) q))
  rw [left_tile V c t (ix2 r k) (ix2 p k) hp rfl, right_whole V c t (ix2 k q)]

/-- An index of the output is in point `t`'s block iff its row is in the point's row tile. -/
theorem mem_tile (t : Fin cfg4.N) (i : S50000x2.Idx) :
    i ∈ ((cfg4.win 3).blk t).view.set ↔ ∀ a : Fin 2, win4_3.index t a * S5000x2.size a ≤ (i a).val ∧ (i a).val < win4_3.index t a * S5000x2.size a + S5000x2.size a := by
  show i ∈ ((View.whole main_v63).slice (win4_3.rect t)).set ↔ _
  rw [View.set_slice_whole, Rect.mem_set_unit]
  exact Iff.rfl

/-- The ten row tiles cover the output. -/
theorem covered (i : S50000x2.Idx) : ∃ t : Fin cfg4.N, (cfg4.win 3).flush t = true ∧ i ∈ ((cfg4.win 3).blk t).view.set := by
  have hi0 : (i 0).val < 50000 := (i 0).isLt
  have hi1 : (i 1).val < 2 := (i 1).isLt
  obtain ⟨t, ht⟩ := tile_onto ⟨(i 0).val / 5000, by omega⟩
  have ht' : t.val = (i 0).val / 5000 := ht
  obtain ⟨-, -, -, -, -, -, e4, e5⟩ := tile_index t
  refine ⟨t, flush4_3 t, ?_⟩
  rw [mem_tile]
  intro a
  match a with
  | ⟨0, _⟩ => show win4_3.index t (0 : Fin 2) * 5000 ≤ (i 0).val ∧ (i 0).val < win4_3.index t (0 : Fin 2) * 5000 + 5000; rw [e4, ht']; omega
  | ⟨1, _⟩ => show win4_3.index t (1 : Fin 2) * 2 ≤ (i 1).val ∧ (i 1).val < win4_3.index t (1 : Fin 2) * 2 + 2; rw [e5]; omega

/-- THE REGION'S RESULT: after the ten points the output array is the whole-array function of the arrays the region
    found in its operand buffers. -/
theorem result (c : Dev nD) :
    (dat4 V c).arrAt 3 cfg4.N = productBias (V c main_v61) (V c main_arg6) (V c main_v62) :=
  (dat4 V c).arrAt_eq_of_cover 3 _ (fun t _ => written V c t) covered

end Cert.KernelIdeal.Logits

end
-- ==== Proof.Network.lean ====
/-
  The network as one function of the eight arguments.

  `x · W1`, one round of message passing, `+ b1` and the clamp at zero; `· W2`, a second round, `+ b2` and the clamp;
  `· Wl + bl`.  A bias vector enters as the one-row array its reshape gives.  Both programs end holding this
  function of their arguments: the kernel program by its five tiled regions between the shared host stretches, the
  reference by its host operations alone.
-/
import proofs.«168623_j50723563766346_1_alg».proof.Proof.Stages
import proofs.«168623_j50723563766346_1_alg».proof.Proof.Product1
import proofs.«168623_j50723563766346_1_alg».proof.Proof.Bias1
import proofs.«168623_j50723563766346_1_alg».proof.Proof.Product2
import proofs.«168623_j50723563766346_1_alg».proof.Proof.Bias2
import proofs.«168623_j50723563766346_1_alg».proof.Proof.Logits

noncomputable section

namespace Cert.Network

open Cert.KernelIdeal Cert.KernelIdeal.Facts₀ Idealize.ShloMosaic

/-- A vector of 64 entries as a one-row array. -/
def row64 (b : S64.Idx → EReal) : S1x64.Idx → EReal := shapeCast S1x64 b shapeCasts_S64_S1x64
/-- A vector of 2 entries as a one-row array. -/
def row2 (b : S2.Idx → EReal) : S1x2.Idx → EReal := shapeCast S1x2 b shapeCasts_S2_S1x2

/-- The first layer: `max(aggregate(x · W1) + b1, 0)`. -/
def layer1 (x0 : S50000x128.Idx → EReal) (e : S2x800000.Idx → BitVec 32) (x2 : S128x64.Idx → EReal) (x3 : S64.Idx → EReal) :
    S50000x64.Idx → EReal :=
  Cert.KernelIdeal.Bias1.biasRelu (Cert.ReferenceIdeal.Stages.aggregate (F := Ideal) (Cert.KernelIdeal.Product1.wholeProduct x0 x2) e) (row64 x3)

/-- The second layer on top of the first: `max(aggregate(h1 · W2) + b2, 0)`. -/
def layer2 (h1 : S50000x64.Idx → EReal) (e : S2x800000.Idx → BitVec 32) (x4 : S64x64.Idx → EReal) (x5 : S64.Idx → EReal) :
    S50000x64.Idx → EReal :=
  Cert.KernelIdeal.Bias2.biasRelu (Cert.ReferenceIdeal.Stages.aggregate (F := Ideal) (Cert.KernelIdeal.Product2.wholeProduct h1 x4) e) (row64 x5)

/-- The whole network. -/
def net (x0 : S50000x128.Idx → EReal) (e : S2x800000.Idx → BitVec 32) (x2 : S128x64.Idx → EReal) (x3 : S64.Idx → EReal)
    (x4 : S64x64.Idx → EReal) (x5 : S64.Idx → EReal) (x6 : S64x2.Idx → EReal) (x7 : S2.Idx → EReal) : S50000x2.Idx → EReal :=
  Cert.KernelIdeal.Logits.productBias (layer2 (layer1 x0 e x2 x3) e x4 x5) x6 (row2 x7)

end Cert.Network

end
-- ==== Proof.KernelFold.lean ====
/-
  The kernel program's buffers at each boundary between its segments.

  Walking the fold of boundary contents from the launch memory: the first three host stretches leave the index
  vectors and the edge coefficients; region 0 leaves `x · W1`; the next stretch the first round of message passing and
  the bias row; region 1 the first layer; region 2 its product with `W2`; the next stretch the second round and the
  second bias row; region 3 the second layer; the last stretch the last bias row; region 4 the result.  A buffer that a
  segment does not write keeps its contents across it, so each array is read where it was last written.
-/
import proofs.«168623_j50723563766346_1_alg».proof.Proof.Gen.KernelIdeal.Frame
import proofs.«168623_j50723563766346_1_alg».proof.Proof.Network
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After the first three host stretches -/

theorem W3_v3 (c : Dev nD) : W3 m ρ c (Proc.devRef .tc main_v3) = Cert.ReferenceIdeal.Stages.sources (F := Ideal) (m ((c : Thread nD τ).loc main_arg1)) := by
  show StableHlo.after hostOps0_2 (StableHlo.after hostOps0_1 (StableHlo.after hostOps0 (W0 m ρ c))) (Proc.devRef .tc main_v3) = _
  after_results
  all_goals rfl

theorem W3_v6 (c : Dev nD) : W3 m ρ c (Proc.devRef .tc main_v6) = Cert.ReferenceIdeal.Stages.targets (F := Ideal) (m ((c : Thread nD τ).loc main_arg1)) := by
  show StableHlo.after hostOps0_2 (StableHlo.after hostOps0_1 (StableHlo.after hostOps0 (W0 m ρ c))) (Proc.devRef .tc main_v6) = _
  after_results
  all_goals rfl

/-- After the first stretch: the degree of every node. -/
theorem W1_v10 (c : Dev nD) : W1 m ρ c (Proc.devRef .tc main_v10) = Cert.ReferenceIdeal.Stages.degree (F := Ideal) (m ((c : Thread nD τ).loc main_arg1)) := by
  show StableHlo.after hostOps0 (W0 m ρ c) (Proc.devRef .tc main_v10) = _
  after_results
  all_goals rfl

theorem W1_v3 (c : Dev nD) : W1 m ρ c (Proc.devRef .tc main_v3) = Cert.ReferenceIdeal.Stages.sources (F := Ideal) (m ((c : Thread nD τ).loc main_arg1)) := by
  show StableHlo.after hostOps0 (W0 m ρ c) (Proc.devRef .tc main_v3) = _
  after_results
  all_goals rfl

theorem W1_v6 (c : Dev nD) : W1 m ρ c (Proc.devRef .tc main_v6) = Cert.ReferenceIdeal.Stages.targets (F := Ideal) (m ((c : Thread nD τ).loc main_arg1)) := by
  show StableHlo.after hostOps0 (W0 m ρ c) (Proc.devRef .tc main_v6) = _
  after_results
  all_goals rfl

set_option maxHeartbeats 4000000 in
theorem W1_v12 (c : Dev nD) : W1 m ρ c (Proc.devRef .tc main_v12) = cmpf (F := Ideal) (s := S50000) (φ := .f32) .ogt (Cert.ReferenceIdeal.Stages.degree (F := Ideal) (m ((c : Thread nD τ).loc main_arg1))) (broadcastInDim S50000 ![] bcast_S_S50000 (constant (F := Ideal) S_ .f32 0x00000000#32)) := by
  show StableHlo.after hostOps0 (W0 m ρ c) (Proc.devRef .tc main_v12) = _
  after_results_simp
  all_goals rfl

set_option maxHeartbeats 4000000 in
theorem W1_v13 (c : Dev nD) : W1 m ρ c (Proc.devRef .tc main_v13) = Host.rsqrt (F := Ideal) (s := S50000) (φ := .f32) (Cert.ReferenceIdeal.Stages.degree (F := Ideal) (m ((c : Thread nD τ).loc main_arg1))) := by
  show StableHlo.after hostOps0 (W0 m ρ c) (Proc.devRef .tc main_v13) = _
  after_results_simp
  all_goals rfl

theorem W1_cst_2 (c : Dev nD) : W1 m ρ c (Proc.devRef .tc main_cst_2) = constant (F := Ideal) S_ .f32 0x00000000#32 := by
  show StableHlo.after hostOps0 (W0 m ρ c) (Proc.devRef .tc main_cst_2) = _
  after_results
  all_goals rfl

/-- The helper's stretch from ANY buffer contents: the select of the comparison, the inverse roots and the
    broadcast constant it finds. -/
theorem helper_stretch (V : Valuation τ sig (Elt Ideal)) :
    StableHlo.after hostOps0_1 V (Proc.devRef .tc main_v14)
      = select (V (Proc.devRef .tc main_v12)) (V (Proc.devRef .tc main_v13)) (broadcastInDim S50000 ![] bcast_S_S50000 (id (V (Proc.devRef .tc main_cst_2)))) := by
  after_results
  all_goals rfl

/-- After the helper's stretch: the weight of every node. -/
theorem W2_v14 (c : Dev nD) : W2 m ρ c (Proc.devRef .tc main_v14) = Cert.ReferenceIdeal.Stages.weight (F := Ideal) (m ((c : Thread nD τ).loc main_arg1)) := by
  refine (helper_stretch (W1 m ρ c)).trans ?_
  rw [W1_v12 m ρ c, W1_v13 m ρ c, W1_cst_2 m ρ c]
  rfl

theorem W2_v3 (c : Dev nD) : W2 m ρ c (Proc.devRef .tc main_v3) = Cert.ReferenceIdeal.Stages.sources (F := Ideal) (m ((c : Thread nD τ).loc main_arg1)) := by
  show StableHlo.after hostOps0_1 (W1 m ρ c) (Proc.devRef .tc main_v3) = _
  after_results
  exact W1_v3 m ρ c

theorem W2_v6 (c : Dev nD) : W2 m ρ c (Proc.devRef .tc main_v6) = Cert.ReferenceIdeal.Stages.targets (F := Ideal) (m ((c : Thread nD τ).loc main_arg1)) := by
  show StableHlo.after hostOps0_1 (W1 m ρ c) (Proc.devRef .tc main_v6) = _
  after_results
  exact W1_v6 m ρ c

/-- The coefficients from the node weights and the two index vectors given by name. -/
def normFrom (w : (⟨Cert.ReferenceIdeal.S50000, .f32⟩ : BufTy).Contents (Elt Ideal)) (src tgt : (⟨Cert.ReferenceIdeal.S850000, .i32⟩ : BufTy).Contents (Elt Ideal)) :
    (⟨Cert.ReferenceIdeal.S850000, .f32⟩ : BufTy).Contents (Elt Ideal) :=
  mulf (F := Ideal) (s := Cert.ReferenceIdeal.S850000) (φ := .f32) (Host.gather Cert.ReferenceIdeal.gather_S50000_S850000x1_S850000_n_0_n_n_0_1_1 w (Cert.ReferenceIdeal.Stages.column (Cert.ReferenceIdeal.Stages.wrap src)))
    (Host.gather Cert.ReferenceIdeal.gather_S50000_S850000x1_S850000_n_0_n_n_0_1_1 w (Cert.ReferenceIdeal.Stages.column (Cert.ReferenceIdeal.Stages.wrap tgt)))

theorem edgeNorm_eq (e : (⟨Cert.ReferenceIdeal.S2x800000, .i32⟩ : BufTy).Contents (Elt Ideal)) :
    Cert.ReferenceIdeal.Stages.edgeNorm (F := Ideal) e = normFrom (Cert.ReferenceIdeal.Stages.weight e) (Cert.ReferenceIdeal.Stages.sources e) (Cert.ReferenceIdeal.Stages.targets e) := rfl

set_option maxHeartbeats 4000000 in
/-- The third stretch from ANY buffer contents: the coefficients of the weights and index vectors it finds. -/
theorem third_stretch (V : Valuation τ sig (Elt Ideal)) :
    StableHlo.after hostOps0_2 V (Proc.devRef .tc main_v29) = normFrom (V (Proc.devRef .tc main_v14)) (V (Proc.devRef .tc main_v3)) (V (Proc.devRef .tc main_v6)) := by
  after_results_simp
  all_goals rfl

/-- After the third stretch: the coefficient of every edge. -/
theorem W3_v29 (c : Dev nD) : W3 m ρ c (Proc.devRef .tc main_v29) = Cert.ReferenceIdeal.Stages.edgeNorm (F := Ideal) (m ((c : Thread nD τ).loc main_arg1)) := by
  refine (third_stretch (W2 m ρ c)).trans ?_
  rw [W2_v14 m ρ c, W2_v3 m ρ c, W2_v6 m ρ c]
  exact (edgeNorm_eq _).symm

theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results
  all_goals rfl

theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results
  all_goals rfl

theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results
  all_goals rfl

theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results
  all_goals rfl

theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results
  all_goals rfl

theorem W3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results
  all_goals rfl

theorem W3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results
  all_goals rfl

/-! ## Region 0: `x · W1` -/

theorem W4_v3 (c : Dev nD) : W4 m ρ c (Proc.devRef .tc main_v3) = Cert.ReferenceIdeal.Stages.sources (F := Ideal) (m ((c : Thread nD τ).loc main_arg1)) :=
  (W4_of_ne m ρ c main_v3 (by decide)).trans (W3_v3 m ρ c)

theorem W4_v6 (c : Dev nD) : W4 m ρ c (Proc.devRef .tc main_v6) = Cert.ReferenceIdeal.Stages.targets (F := Ideal) (m ((c : Thread nD τ).loc main_arg1)) :=
  (W4_of_ne m ρ c main_v6 (by decide)).trans (W3_v6 m ρ c)

theorem W4_v29 (c : Dev nD) : W4 m ρ c (Proc.devRef .tc main_v29) = Cert.ReferenceIdeal.Stages.edgeNorm (F := Ideal) (m ((c : Thread nD τ).loc main_arg1)) :=
  (W4_of_ne m ρ c main_v29 (by decide)).trans (W3_v29 m ρ c)

theorem W4_arg3 (c : Dev nD) : W4 m ρ c (Proc.devRef .tc main_arg3) = (m ((c : Thread nD τ).loc main_arg3)) :=
  (W4_of_ne m ρ c main_arg3 (by decide)).trans (W3_arg3 m ρ c)

theorem W4_arg4 (c : Dev nD) : W4 m ρ c (Proc.devRef .tc main_arg4) = (m ((c : Thread nD τ).loc main_arg4)) :=
  (W4_of_ne m ρ c main_arg4 (by decide)).trans (W3_arg4 m ρ c)

theorem W4_arg5 (c : Dev nD) : W4 m ρ c (Proc.devRef .tc main_arg5) = (m ((c : Thread nD τ).loc main_arg5)) :=
  (W4_of_ne m ρ c main_arg5 (by decide)).trans (W3_arg5 m ρ c)

theorem W4_arg6 (c : Dev nD) : W4 m ρ c (Proc.devRef .tc main_arg6) = (m ((c : Thread nD τ).loc main_arg6)) :=
  (W4_of_ne m ρ c main_arg6 (by decide)).trans (W3_arg6 m ρ c)

theorem W4_arg7 (c : Dev nD) : W4 m ρ c (Proc.devRef .tc main_arg7) = (m ((c : Thread nD τ).loc main_arg7)) :=
  (W4_of_ne m ρ c main_arg7 (by decide)).trans (W3_arg7 m ρ c)

theorem W4_v30 (c : Dev nD) : W4 m ρ c (Proc.devRef .tc main_v30) = (Cert.KernelIdeal.Product1.wholeProduct (m ((c : Thread nD τ).loc main_arg0)) (m ((c : Thread nD τ).loc main_arg2))) := by
  refine (W4_arr m ρ c 2).trans ?_
  rw [Cert.KernelIdeal.Product1.result (V3 m ρ) c]
  show Cert.KernelIdeal.Product1.wholeProduct (W3 m ρ c (Proc.devRef .tc main_arg0)) (W3 m ρ c (Proc.devRef .tc main_arg2)) = _
  rw [W3_arg0 m ρ c, W3_arg2 m ρ c]

/-! ## The first round of message passing and the first bias row -/

theorem W5_v3 (c : Dev nD) : W5 m ρ c (Proc.devRef .tc main_v3) = Cert.ReferenceIdeal.Stages.sources (F := Ideal) (m ((c : Thread nD τ).loc main_arg1)) := by
  show StableHlo.after hostOps1 (W4 m ρ c) (Proc.devRef .tc main_v3) = _
  after_results
  exact W4_v3 m ρ c

theorem W5_v6 (c : Dev nD) : W5 m ρ c (Proc.devRef .tc main_v6) = Cert.ReferenceIdeal.Stages.targets (F := Ideal) (m ((c : Thread nD τ).loc main_arg1)) := by
  show StableHlo.after hostOps1 (W4 m ρ c) (Proc.devRef .tc main_v6) = _
  after_results
  exact W4_v6 m ρ c

theorem W5_v29 (c : Dev nD) : W5 m ρ c (Proc.devRef .tc main_v29) = Cert.ReferenceIdeal.Stages.edgeNorm (F := Ideal) (m ((c : Thread nD τ).loc main_arg1)) := by
  show StableHlo.after hostOps1 (W4 m ρ c) (Proc.devRef .tc main_v29) = _
  after_results
  exact W4_v29 m ρ c

theorem W5_arg4 (c : Dev nD) : W5 m ρ c (Proc.devRef .tc main_arg4) = (m ((c : Thread nD τ).loc main_arg4)) := by
  show StableHlo.after hostOps1 (W4 m ρ c) (Proc.devRef .tc main_arg4) = _
  after_results
  exact W4_arg4 m ρ c

theorem W5_arg5 (c : Dev nD) : W5 m ρ c (Proc.devRef .tc main_arg5) = (m ((c : Thread nD τ).loc main_arg5)) := by
  show StableHlo.after hostOps1 (W4 m ρ c) (Proc.devRef .tc main_arg5) = _
  after_results
  exact W4_arg5 m ρ c

theorem W5_arg6 (c : Dev nD) : W5 m ρ c (Proc.devRef .tc main_arg6) = (m ((c : Thread nD τ).loc main_arg6)) := by
  show StableHlo.after hostOps1 (W4 m ρ c) (Proc.devRef .tc main_arg6) = _
  after_results
  exact W4_arg6 m ρ c

theorem W5_arg7 (c : Dev nD) : W5 m ρ c (Proc.devRef .tc main_arg7) = (m ((c : Thread nD τ).loc main_arg7)) := by
  show StableHlo.after hostOps1 (W4 m ρ c) (Proc.devRef .tc main_arg7) = _
  after_results
  exact W4_arg7 m ρ c

set_option maxHeartbeats 8000000 in
theorem W5_v43 (c : Dev nD) : W5 m ρ c (Proc.devRef .tc main_v43) = (Cert.ReferenceIdeal.Stages.aggregate (F := Ideal) (Cert.KernelIdeal.Product1.wholeProduct (m ((c : Thread nD τ).loc main_arg0)) (m ((c : Thread nD τ).loc main_arg2))) (m ((c : Thread nD τ).loc main_arg1))) := by
  show StableHlo.after hostOps1 (W4 m ρ c) (Proc.devRef .tc main_v43) = _
  after_results_simp
  rw [W4_v30 m ρ c, W4_v3 m ρ c, W4_v6 m ρ c, W4_v29 m ρ c]
  rfl

theorem W5_v44 (c : Dev nD) : W5 m ρ c (Proc.devRef .tc main_v44) = Cert.Network.row64 (m ((c : Thread nD τ).loc main_arg3)) := by
  show StableHlo.after hostOps1 (W4 m ρ c) (Proc.devRef .tc main_v44) = _
  after_results
  rw [W4_arg3 m ρ c]
  rfl

/-! ## Region 1: the first layer -/

theorem W6_v3 (c : Dev nD) : W6 m ρ c (Proc.devRef .tc main_v3) = Cert.ReferenceIdeal.Stages.sources (F := Ideal) (m ((c : Thread nD τ).loc main_arg1)) :=
  (W6_of_ne m ρ c main_v3 (by decide)).trans (W5_v3 m ρ c)

theorem W6_v6 (c : Dev nD) : W6 m ρ c (Proc.devRef .tc main_v6) = Cert.ReferenceIdeal.Stages.targets (F := Ideal) (m ((c : Thread nD τ).loc main_arg1)) :=
  (W6_of_ne m ρ c main_v6 (by decide)).trans (W5_v6 m ρ c)

theorem W6_v29 (c : Dev nD) : W6 m ρ c (Proc.devRef .tc main_v29) = Cert.ReferenceIdeal.Stages.edgeNorm (F := Ideal) (m ((c : Thread nD τ).loc main_arg1)) :=
  (W6_of_ne m ρ c main_v29 (by decide)).trans (W5_v29 m ρ c)

theorem W6_arg4 (c : Dev nD) : W6 m ρ c (Proc.devRef .tc main_arg4) = (m ((c : Thread nD τ).loc main_arg4)) :=
  (W6_of_ne m ρ c main_arg4 (by decide)).trans (W5_arg4 m ρ c)

theorem W6_arg5 (c : Dev nD) : W6 m ρ c (Proc.devRef .tc main_arg5) = (m ((c : Thread nD τ).loc main_arg5)) :=
  (W6_of_ne m ρ c main_arg5 (by decide)).trans (W5_arg5 m ρ c)

theorem W6_arg6 (c : Dev nD) : W6 m ρ c (Proc.devRef .tc main_arg6) = (m ((c : Thread nD τ).loc main_arg6)) :=
  (W6_of_ne m ρ c main_arg6 (by decide)).trans (W5_arg6 m ρ c)

theorem W6_arg7 (c : Dev nD) : W6 m ρ c (Proc.devRef .tc main_arg7) = (m ((c : Thread nD τ).loc main_arg7)) :=
  (W6_of_ne m ρ c main_arg7 (by decide)).trans (W5_arg7 m ρ c)

theorem W6_v45 (c : Dev nD) : W6 m ρ c (Proc.devRef .tc main_v45) = (Cert.Network.layer1 (m ((c : Thread nD τ).loc main_arg0)) (m ((c : Thread nD τ).loc main_arg1)) (m ((c : Thread nD τ).loc main_arg2)) (m ((c : Thread nD τ).loc main_arg3))) := by
  refine (W6_arr m ρ c 2).trans ?_
  rw [Cert.KernelIdeal.Bias1.result (V5 m ρ) c]
  show Cert.KernelIdeal.Bias1.biasRelu (W5 m ρ c (Proc.devRef .tc main_v43)) (W5 m ρ c (Proc.devRef .tc main_v44)) = _
  rw [W5_v43 m ρ c, W5_v44 m ρ c]
  rfl

/-! ## Region 2: its product with `W2` -/

theorem W7_v3 (c : Dev nD) : W7 m ρ c (Proc.devRef .tc main_v3) = Cert.ReferenceIdeal.Stages.sources (F := Ideal) (m ((c : Thread nD τ).loc main_arg1)) :=
  (W7_of_ne m ρ c main_v3 (by decide)).trans (W6_v3 m ρ c)

theorem W7_v6 (c : Dev nD) : W7 m ρ c (Proc.devRef .tc main_v6) = Cert.ReferenceIdeal.Stages.targets (F := Ideal) (m ((c : Thread nD τ).loc main_arg1)) :=
  (W7_of_ne m ρ c main_v6 (by decide)).trans (W6_v6 m ρ c)

theorem W7_v29 (c : Dev nD) : W7 m ρ c (Proc.devRef .tc main_v29) = Cert.ReferenceIdeal.Stages.edgeNorm (F := Ideal) (m ((c : Thread nD τ).loc main_arg1)) :=
  (W7_of_ne m ρ c main_v29 (by decide)).trans (W6_v29 m ρ c)

theorem W7_arg5 (c : Dev nD) : W7 m ρ c (Proc.devRef .tc main_arg5) = (m ((c : Thread nD τ).loc main_arg5)) :=
  (W7_of_ne m ρ c main_arg5 (by decide)).trans (W6_arg5 m ρ c)

theorem W7_arg6 (c : Dev nD) : W7 m ρ c (Proc.devRef .tc main_arg6) = (m ((c : Thread nD τ).loc main_arg6)) :=
  (W7_of_ne m ρ c main_arg6 (by decide)).trans (W6_arg6 m ρ c)

theorem W7_arg7 (c : Dev nD) : W7 m ρ c (Proc.devRef .tc main_arg7) = (m ((c : Thread nD τ).loc main_arg7)) :=
  (W7_of_ne m ρ c main_arg7 (by decide)).trans (W6_arg7 m ρ c)

theorem W7_v46 (c : Dev nD) : W7 m ρ c (Proc.devRef .tc main_v46) = (Cert.KernelIdeal.Product2.wholeProduct (Cert.Network.layer1 (m ((c : Thread nD τ).loc main_arg0)) (m ((c : Thread nD τ).loc main_arg1)) (m ((c : Thread nD τ).loc main_arg2)) (m ((c : Thread nD τ).loc main_arg3))) (m ((c : Thread nD τ).loc main_arg4))) := by
  refine (W7_arr m ρ c 2).trans ?_
  rw [Cert.KernelIdeal.Product2.result (V6 m ρ) c]
  show Cert.KernelIdeal.Product2.wholeProduct (W6 m ρ c (Proc.devRef .tc main_v45)) (W6 m ρ c (Proc.devRef .tc main_arg4)) = _
  rw [W6_v45 m ρ c, W6_arg4 m ρ c]

/-! ## The second round of message passing and the second bias row -/

theorem W8_arg6 (c : Dev nD) : W8 m ρ c (Proc.devRef .tc main_arg6) = (m ((c : Thread nD τ).loc main_arg6)) := by
  show StableHlo.after hostOps3 (W7 m ρ c) (Proc.devRef .tc main_arg6) = _
  after_results
  exact W7_arg6 m ρ c

theorem W8_arg7 (c : Dev nD) : W8 m ρ c (Proc.devRef .tc main_arg7) = (m ((c : Thread nD τ).loc main_arg7)) := by
  show StableHlo.after hostOps3 (W7 m ρ c) (Proc.devRef .tc main_arg7) = _
  after_results
  exact W7_arg7 m ρ c

set_option maxHeartbeats 8000000 in
theorem W8_v59 (c : Dev nD) : W8 m ρ c (Proc.devRef .tc main_v59) = (Cert.ReferenceIdeal.Stages.aggregate (F := Ideal) (Cert.KernelIdeal.Product2.wholeProduct (Cert.Network.layer1 (m ((c : Thread nD τ).loc main_arg0)) (m ((c : Thread nD τ).loc main_arg1)) (m ((c : Thread nD τ).loc main_arg2)) (m ((c : Thread nD τ).loc main_arg3))) (m ((c : Thread nD τ).loc main_arg4))) (m ((c : Thread nD τ).loc main_arg1))) := by
  show StableHlo.after hostOps3 (W7 m ρ c) (Proc.devRef .tc main_v59) = _
  after_results_simp
  rw [W7_v46 m ρ c, W7_v3 m ρ c, W7_v6 m ρ c, W7_v29 m ρ c]
  rfl

theorem W8_v60 (c : Dev nD) : W8 m ρ c (Proc.devRef .tc main_v60) = Cert.Network.row64 (m ((c : Thread nD τ).loc main_arg5)) := by
  show StableHlo.after hostOps3 (W7 m ρ c) (Proc.devRef .tc main_v60) = _
  after_results
  rw [W7_arg5 m ρ c]
  rfl

/-! ## Region 3: the second layer -/

theorem W9_arg6 (c : Dev nD) : W9 m ρ c (Proc.devRef .tc main_arg6) = (m ((c : Thread nD τ).loc main_arg6)) :=
  (W9_of_ne m ρ c main_arg6 (by decide)).trans (W8_arg6 m ρ c)

theorem W9_arg7 (c : Dev nD) : W9 m ρ c (Proc.devRef .tc main_arg7) = (m ((c : Thread nD τ).loc main_arg7)) :=
  (W9_of_ne m ρ c main_arg7 (by decide)).trans (W8_arg7 m ρ c)

theorem W9_v61 (c : Dev nD) : W9 m ρ c (Proc.devRef .tc main_v61) = (Cert.Network.layer2 (Cert.Network.layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) := by
  refine (W9_arr m ρ c 2).trans ?_
  rw [Cert.KernelIdeal.Bias2.result (V8 m ρ) c]
  show Cert.KernelIdeal.Bias2.biasRelu (W8 m ρ c (Proc.devRef .tc main_v59)) (W8 m ρ c (Proc.devRef .tc main_v60)) = _
  rw [W8_v59 m ρ c, W8_v60 m ρ c]
  rfl

/-! ## The last bias row -/

theorem W10_v61 (c : Dev nD) : W10 m ρ c (Proc.devRef .tc main_v61) = (Cert.Network.layer2 (Cert.Network.layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) := by
  show StableHlo.after hostOps4 (W9 m ρ c) (Proc.devRef .tc main_v61) = _
  after_results
  exact W9_v61 m ρ c

theorem W10_arg6 (c : Dev nD) : W10 m ρ c (Proc.devRef .tc main_arg6) = (m ((c : Thread nD τ).loc main_arg6)) := by
  show StableHlo.after hostOps4 (W9 m ρ c) (Proc.devRef .tc main_arg6) = _
  after_results
  exact W9_arg6 m ρ c

theorem W10_v62 (c : Dev nD) : W10 m ρ c (Proc.devRef .tc main_v62) = Cert.Network.row2 (m ((c : Thread nD τ).loc main_arg7)) := by
  show StableHlo.after hostOps4 (W9 m ρ c) (Proc.devRef .tc main_v62) = _
  after_results
  rw [W9_arg7 m ρ c]
  rfl

/-! ## Region 4: the result -/

/-- THE KERNEL PROGRAM'S RESULT: at the last boundary the result array holds the network of the eight arguments. -/
theorem last_boundary (c : Dev nD) :
    W11 m ρ c (Proc.devRef .tc main_v63) = Cert.Network.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 3).trans ?_
  rw [Cert.KernelIdeal.Logits.result (V10 m ρ) c]
  show Cert.KernelIdeal.Logits.productBias (W10 m ρ c (Proc.devRef .tc main_v61)) (W10 m ρ c (Proc.devRef .tc main_arg6)) (W10 m ρ c (Proc.devRef .tc main_v62)) = _
  rw [W10_v61 m ρ c, W10_arg6 m ρ c, W10_v62 m ρ c]
  rfl

end Cert.KernelIdeal.Fold

end
-- ==== Proof.ReferenceRun.lean ====
/-
  The reference program's run.

  The reference has no tiled region: its @main is ninety host operations in a line (the outlined helper functions'
  operations standing at their call sites).  Such a line runs to the fold of its operations over the launch memory:
  every weakly fair execution terminates without a fault and every buffer ends at that fold.
-/
import proofs.«168623_j50723563766346_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem

variable {F : FTy → Type} [FloatOps F]

/-- @main's ninety operations, in order. -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x64 ![0, 1] bcast_S850000x1_S850000x64_0_1 : (⟨S850000x1, .f32⟩ : BufTy).Contents (Elt F) → (⟨S850000x64, .f32⟩ : BufTy).Contents (Elt F)),
    StableHlo.binary main_v37 main_v39 main_v40 (mulf : (⟨S850000x64, .f32⟩ : BufTy).Contents (Elt F) → (⟨S850000x64, .f32⟩ : BufTy).Contents (Elt F) → (⟨S850000x64, .f32⟩ : BufTy).Contents (Elt F)),
    StableHlo.nullary main_cst_8 (constant S_ .f32 0x00000000#32),
    StableHlo.unary main_cst_8 main_v41 (broadcastInDim S50000x64 ![] bcast_S_S50000x64 : (⟨S_, .f32⟩ : BufTy).Contents (Elt F) → (⟨S50000x64, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg3 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x64, .f32⟩) (broadcastInDim S50000x64 ![] bcast_S_S50000x64),
    StableHlo.TRef.binary (.of main_v46 : StableHlo.TRef sig ⟨S50000x64, .f32⟩) (.of main_call1_v0 : StableHlo.TRef sig ⟨S50000x64, .f32⟩) (.of main_v47 : StableHlo.TRef sig ⟨S50000x64, .f32⟩) maximumf,
    StableHlo.binary main_v47 main_arg4 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v29 main_v56 (broadcastInDim S850000x1 ![0] bcast_S850000_S850000x1_0 : (⟨S850000, .f32⟩ : BufTy).Contents (Elt F) → (⟨S850000x1, .f32⟩ : BufTy).Contents (Elt F)),
    StableHlo.unary main_v56 main_v57 (broadcastInDim S850000x64 ![0, 1] bcast_S850000x1_S850000x64_0_1 : (⟨S850000x1, .f32⟩ : BufTy).Contents (Elt F) → (⟨S850000x64, .f32⟩ : BufTy).Contents (Elt F)),
    StableHlo.binary main_v55 main_v57 main_v58 (mulf : (⟨S850000x64, .f32⟩ : BufTy).Contents (Elt F) → (⟨S850000x64, .f32⟩ : BufTy).Contents (Elt F) → (⟨S850000x64, .f32⟩ : BufTy).Contents (Elt F)),
    StableHlo.nullary main_cst_11 (constant S_ .f32 0x00000000#32),
    StableHlo.unary main_cst_11 main_v59 (broadcastInDim S50000x64 ![] bcast_S_S50000x64 : (⟨S_, .f32⟩ : BufTy).Contents (Elt F) → (⟨S50000x64, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x64, .f32⟩) (broadcastInDim S50000x64 ![] bcast_S_S50000x64),
    StableHlo.TRef.binary (.of main_v64 : StableHlo.TRef sig ⟨S50000x64, .f32⟩) (.of main_call2_v0 : StableHlo.TRef sig ⟨S50000x64, .f32⟩) (.of main_v65 : StableHlo.TRef sig ⟨S50000x64, .f32⟩) maximumf,
    StableHlo.binary main_v65 main_arg6 main_v66 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    StableHlo.unary main_arg7 main_v67 (broadcastInDim S1x2 ![1] bcast_S2_S1x2_1 : (⟨S2, .f32⟩ : BufTy).Contents (Elt F) → (⟨S1x2, .f32⟩ : BufTy).Contents (Elt F)),
    StableHlo.unary main_v67 main_v68 (broadcastInDim S50000x2 ![0, 1] bcast_S1x2_S50000x2_0_1 : (⟨S1x2, .f32⟩ : BufTy).Contents (Elt F) → (⟨S50000x2, .f32⟩ : BufTy).Contents (Elt F)),
    StableHlo.binary main_v66 main_v68 main_v69 (addf : (⟨S50000x2, .f32⟩ : BufTy).Contents (Elt F) → (⟨S50000x2, .f32⟩ : BufTy).Contents (Elt F) → (⟨S50000x2, .f32⟩ : BufTy).Contents (Elt F)) ]

set_option maxRecDepth 8192 in
set_option maxHeartbeats 4000000 in
theorem main_eq (c : Dev nD) : main (F := F) c = StableHlo.seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

set_option maxRecDepth 8192 in
set_option maxHeartbeats 4000000 in
/-- On every device, from any memory with zero counters: every weakly fair execution of @main terminates and every
    buffer ends at the fold of the ninety operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ

end Cert.ReferenceIdeal.HostRun

end
-- ==== Proof.HostLayers.lean ====
/-
  The reference's spelling of the bias stages.

  The reference adds a bias vector by broadcasting it to a one-row array and that row to every row; it clamps at zero
  by a maximum with a zero array; the kernel program instead reshapes the vector into a one-row array on the host and
  broadcasts and clamps inside its regions.  Read at an index `(p, q)` both take entry `q` of the vector, and the zero
  array reads `0`; so the reference's stages are the whole-array functions the kernel regions compute.
-/
import proofs.«168623_j50723563766346_1_alg».proof.Proof.Network
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.HostLayers

open Cert.ReferenceIdeal Cert.ReferenceIdeal.Facts₀ Idealize.ShloMosaic Idealize.ShloMosaic.ValueIdx

/-- A vector of 64 entries as every row of a `[50000, 64]` array. -/
def rows64 (b : S64.Idx → EReal) : S50000x64.Idx → EReal :=
  broadcastInDim S50000x64 ![0, 1] bcast_S1x64_S50000x64_0_1 (broadcastInDim S1x64 ![1] bcast_S64_S1x64_1 b)

/-- The `[50000, 64]` array of zeros. -/
def zeros64 : S50000x64.Idx → EReal :=
  broadcastInDim S50000x64 ![] bcast_S_S50000x64 (constant (F := Ideal) S_ .f32 0x00000000#32)

/-- A vector of 2 entries as every row of a `[50000, 2]` array. -/
def rows2 (b : S2.Idx → EReal) : S50000x2.Idx → EReal :=
  broadcastInDim S50000x2 ![0, 1] bcast_S1x2_S50000x2_0_1 (broadcastInDim S1x2 ![1] bcast_S2_S1x2_1 b)

theorem rows64_apply (b : S64.Idx → EReal) (p : Fin 50000) (q : Fin 64) : rows64 b (ix2 p q) = b (ix1 q) :=
  (broadcastInDim_apply _ bcast_S1x64_S50000x64_0_1 (broadcastInDim S1x64 ![1] bcast_S64_S1x64_1 b) (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])).trans
    (broadcastInDim_apply _ bcast_S64_S1x64_1 b (ix2 (0 : Fin 1) q) (ix1 q) (fun a => match a with
      | ⟨0, _⟩ => by show q.val = if (64 : Nat) = 1 then 0 else q.val; rw [if_neg (by decide)]))

theorem rows2_apply (b : S2.Idx → EReal) (p : Fin 50000) (q : Fin 2) : rows2 b (ix2 p q) = b (ix1 q) :=
  (broadcastInDim_apply _ bcast_S1x2_S50000x2_0_1 (broadcastInDim S1x2 ![1] bcast_S2_S1x2_1 b) (ix2 p q) (ix2 (0 : Fin 1) q) (fun a => match a with
      | ⟨0, _⟩ => by show 0 = if (1 : Nat) = 1 then 0 else p.val; rw [if_pos rfl]
      | ⟨1, _⟩ => by show q.val = if (2 : Nat) = 1 then 0 else q.val; rw [if_neg (by decide)])).trans
    (broadcastInDim_apply _ bcast_S2_S1x2_1 b (ix2 (0 : Fin 1) q) (ix1 q) (fun a => match a with
      | ⟨0, _⟩ => by show q.val = if (2 : Nat) = 1 then 0 else q.val; rw [if_neg (by decide)]))

theorem zeros64_apply (i : S50000x64.Idx) : zeros64 i = 0 := by
  show Ideal.ofBits .f32 0x00000000#32 = 0
  exact Ideal.ofBits_zero_f32

/-- A vector reshaped into a one-row array, read at `(0, q)`, is the vector at `q`. -/
theorem row64_apply (b : S64.Idx → EReal) (q : Fin 64) : Cert.Network.row64 b (ix2 (0 : Fin 1) q) = b (ix1 q) := by
  unfold Cert.Network.row64
  exact shapeCast_a_1a_apply b _ 0 q

theorem row2_apply (b : S2.Idx → EReal) (q : Fin 2) : Cert.Network.row2 b (ix2 (0 : Fin 1) q) = b (ix1 q) := by
  unfold Cert.Network.row2
  exact shapeCast_a_1a_apply b _ 0 q

/-- The reference's first bias stage is the function region 1 computes. -/
theorem host_bias1 (a : S50000x64.Idx → EReal) (b : S64.Idx → EReal) :
    (maximumf (F := Ideal) (s := S50000x64) (φ := .f32) (addf (F := Ideal) (s := S50000x64) (φ := .f32) a (rows64 b)) zeros64 : S50000x64.Idx → EReal)
      = Cert.KernelIdeal.Bias1.biasRelu a (Cert.Network.row64 b) := by
  funext i
  obtain ⟨p, q, rfl⟩ : ∃ (p : Fin 50000) (q : Fin 64), i = ix2 p q := ⟨i 0, i 1, eq_ix2 i⟩
  show max (a (ix2 p q) + rows64 b (ix2 p q)) (zeros64 (ix2 p q)) = max (a (ix2 p q) + Cert.Network.row64 b (ix2 (0 : Fin 1) q)) 0
  rw [rows64_apply, zeros64_apply, row64_apply]

/-- The reference's second bias stage is the function region 3 computes. -/
theorem host_bias2 (a : S50000x64.Idx → EReal) (b : S64.Idx → EReal) :
    (maximumf (F := Ideal) (s := S50000x64) (φ := .f32) (addf (F := Ideal) (s := S50000x64) (φ := .f32) a (rows64 b)) zeros64 : S50000x64.Idx → EReal)
      = Cert.KernelIdeal.Bias2.biasRelu a (Cert.Network.row64 b) := by
  funext i
  obtain ⟨p, q, rfl⟩ : ∃ (p : Fin 50000) (q : Fin 64), i = ix2 p q := ⟨i 0, i 1, eq_ix2 i⟩
  show max (a (ix2 p q) + rows64 b (ix2 p q)) (zeros64 (ix2 p q)) = max (a (ix2 p q) + Cert.Network.row64 b (ix2 (0 : Fin 1) q)) 0
  rw [rows64_apply, zeros64_apply, row64_apply]

/-- The reference's last stage is the function region 4 computes. -/
theorem host_logits (y : S50000x64.Idx → EReal) (w : S64x2.Idx → EReal) (b : S2.Idx → EReal) :
    (addf (F := Ideal) (s := S50000x2) (φ := .f32) (Cert.KernelIdeal.Logits.wholeProduct y w) (rows2 b) : S50000x2.Idx → EReal)
      = Cert.KernelIdeal.Logits.productBias y w (Cert.Network.row2 b) := by
  funext i
  obtain ⟨p, q, rfl⟩ : ∃ (p : Fin 50000) (q : Fin 2), i = ix2 p q := ⟨i 0, i 1, eq_ix2 i⟩
  show Cert.KernelIdeal.Logits.wholeProduct y w (ix2 p q) + rows2 b (ix2 p q) = Cert.KernelIdeal.Logits.wholeProduct y w (ix2 p q) + Cert.Network.row2 b (ix2 (0 : Fin 1) q)
  rw [rows2_apply, row2_apply]

end Cert.ReferenceIdeal.HostLayers

end
-- ==== Proof.ReferenceValue.lean ====
/-
  What the reference program computes.

  The reference's ninety host operations are cut into eight stretches: the index vectors, the degrees and their
  comparison; the helper that selects the node weights; the edge coefficients; the first product, the first round of
  message passing and the first bias; the first clamp at zero; the second product, round and bias; the second clamp;
  the last product and bias.  Each stretch is read from ARBITRARY buffer contents as the composition of its operations
  on the buffers it reads, and keeps every buffer it does not write; walking the eight boundaries from the launch
  memory, the result buffer ends at the network of the eight arguments, and every argument buffer keeps its launch
  contents.  The products are the whole-array products the kernel regions compute, the bias stages their whole-array
  functions (the module on the reference's spelling of the bias stages), the rounds of message passing the shared host
  composition.
-/
import proofs.«168623_j50723563766346_1_alg».proof.Proof.ReferenceRun
import proofs.«168623_j50723563766346_1_alg».proof.Proof.HostLayers

set_option maxRecDepth 8192

noncomputable section

namespace Cert.ReferenceIdeal.HostValue

open Cert.ReferenceIdeal Cert.ReferenceIdeal.Gen Idealize.ShloMosaic Idealize.ShloMosaic.TcCoe Idealize.SL.Sem
open Idealize.ShloMosaic.StableHlo Cert.ReferenceIdeal.HostRun Cert.ReferenceIdeal.HostLayers

/-! ## The eight stretches -/

variable {F : FTy → Type} [FloatOps F]

abbrev opsA : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

abbrev opsB : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select ]

abbrev opsC : List (HloOp τ sig (Elt F)) :=
  [ StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

abbrev opsD : List (HloOp τ sig (Elt F)) :=
  [ StableHlo.binary main_arg0 main_arg2 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x64 ![0, 1] bcast_S850000x1_S850000x64_0_1 : (⟨S850000x1, .f32⟩ : BufTy).Contents (Elt F) → (⟨S850000x64, .f32⟩ : BufTy).Contents (Elt F)),
    StableHlo.binary main_v37 main_v39 main_v40 (mulf : (⟨S850000x64, .f32⟩ : BufTy).Contents (Elt F) → (⟨S850000x64, .f32⟩ : BufTy).Contents (Elt F) → (⟨S850000x64, .f32⟩ : BufTy).Contents (Elt F)),
    StableHlo.nullary main_cst_8 (constant S_ .f32 0x00000000#32),
    StableHlo.unary main_cst_8 main_v41 (broadcastInDim S50000x64 ![] bcast_S_S50000x64 : (⟨S_, .f32⟩ : BufTy).Contents (Elt F) → (⟨S50000x64, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg3 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)) ]

abbrev opsE : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x64, .f32⟩) (broadcastInDim S50000x64 ![] bcast_S_S50000x64),
    StableHlo.TRef.binary (.of main_v46 : StableHlo.TRef sig ⟨S50000x64, .f32⟩) (.of main_call1_v0 : StableHlo.TRef sig ⟨S50000x64, .f32⟩) (.of main_v47 : StableHlo.TRef sig ⟨S50000x64, .f32⟩) maximumf ]

abbrev opsG : List (HloOp τ sig (Elt F)) :=
  [ StableHlo.binary main_v47 main_arg4 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v29 main_v56 (broadcastInDim S850000x1 ![0] bcast_S850000_S850000x1_0 : (⟨S850000, .f32⟩ : BufTy).Contents (Elt F) → (⟨S850000x1, .f32⟩ : BufTy).Contents (Elt F)),
    StableHlo.unary main_v56 main_v57 (broadcastInDim S850000x64 ![0, 1] bcast_S850000x1_S850000x64_0_1 : (⟨S850000x1, .f32⟩ : BufTy).Contents (Elt F) → (⟨S850000x64, .f32⟩ : BufTy).Contents (Elt F)),
    StableHlo.binary main_v55 main_v57 main_v58 (mulf : (⟨S850000x64, .f32⟩ : BufTy).Contents (Elt F) → (⟨S850000x64, .f32⟩ : BufTy).Contents (Elt F) → (⟨S850000x64, .f32⟩ : BufTy).Contents (Elt F)),
    StableHlo.nullary main_cst_11 (constant S_ .f32 0x00000000#32),
    StableHlo.unary main_cst_11 main_v59 (broadcastInDim S50000x64 ![] bcast_S_S50000x64 : (⟨S_, .f32⟩ : BufTy).Contents (Elt F) → (⟨S50000x64, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (addf : (⟨S50000x64, .f32⟩ : BufTy).Contents (Elt F) → (⟨S50000x64, .f32⟩ : BufTy).Contents (Elt F) → (⟨S50000x64, .f32⟩ : BufTy).Contents (Elt F)) ]

abbrev opsH : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x64, .f32⟩) (broadcastInDim S50000x64 ![] bcast_S_S50000x64),
    StableHlo.TRef.binary (.of main_v64 : StableHlo.TRef sig ⟨S50000x64, .f32⟩) (.of main_call2_v0 : StableHlo.TRef sig ⟨S50000x64, .f32⟩) (.of main_v65 : StableHlo.TRef sig ⟨S50000x64, .f32⟩) maximumf ]

abbrev opsJ : List (HloOp τ sig (Elt F)) :=
  [ StableHlo.binary main_v65 main_arg6 main_v66 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    StableHlo.unary main_arg7 main_v67 (broadcastInDim S1x2 ![1] bcast_S2_S1x2_1 : (⟨S2, .f32⟩ : BufTy).Contents (Elt F) → (⟨S1x2, .f32⟩ : BufTy).Contents (Elt F)),
    StableHlo.unary main_v67 main_v68 (broadcastInDim S50000x2 ![0, 1] bcast_S1x2_S50000x2_0_1 : (⟨S1x2, .f32⟩ : BufTy).Contents (Elt F) → (⟨S50000x2, .f32⟩ : BufTy).Contents (Elt F)),
    StableHlo.binary main_v66 main_v68 main_v69 (addf : (⟨S50000x2, .f32⟩ : BufTy).Contents (Elt F) → (⟨S50000x2, .f32⟩ : BufTy).Contents (Elt F) → (⟨S50000x2, .f32⟩ : BufTy).Contents (Elt F)) ]

/-- The ninety operations are the eight stretches in order. -/
theorem ops_split : (ops : List (HloOp τ sig (Elt F))) = opsA ++ (opsB ++ (opsC ++ (opsD ++ (opsE ++ (opsG ++ (opsH ++ opsJ)))))) := rfl

/-- Running two stretches one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-! ## What each stretch computes, from any buffer contents -/

/-- The coefficients from the node weights and the two index vectors given by name. -/
def normFrom (w : (⟨S50000, .f32⟩ : BufTy).Contents (Elt Ideal)) (src tgt : (⟨S850000, .i32⟩ : BufTy).Contents (Elt Ideal)) :
    (⟨S850000, .f32⟩ : BufTy).Contents (Elt Ideal) :=
  mulf (F := Ideal) (s := S850000) (φ := .f32) (Host.gather gather_S50000_S850000x1_S850000_n_0_n_n_0_1_1 w (Cert.ReferenceIdeal.Stages.column (Cert.ReferenceIdeal.Stages.wrap src)))
    (Host.gather gather_S50000_S850000x1_S850000_n_0_n_n_0_1_1 w (Cert.ReferenceIdeal.Stages.column (Cert.ReferenceIdeal.Stages.wrap tgt)))

theorem edgeNorm_eq (e : (⟨S2x800000, .i32⟩ : BufTy).Contents (Elt Ideal)) :
    Cert.ReferenceIdeal.Stages.edgeNorm (F := Ideal) e = normFrom (Cert.ReferenceIdeal.Stages.weight e) (Cert.ReferenceIdeal.Stages.sources e) (Cert.ReferenceIdeal.Stages.targets e) := rfl

theorem B_v14 (V : Valuation τ sig (Elt Ideal)) :
    StableHlo.after (opsB (F := Ideal)) V (Proc.devRef .tc main_v14)
      = select (V (Proc.devRef .tc main_v12)) (V (Proc.devRef .tc main_v13)) (broadcastInDim S50000 ![] bcast_S_S50000 (id (V (Proc.devRef .tc main_cst_2)))) := by
  after_results
  all_goals rfl

set_option maxHeartbeats 4000000 in
theorem C_v29 (V : Valuation τ sig (Elt Ideal)) :
    StableHlo.after (opsC (F := Ideal)) V (Proc.devRef .tc main_v29) = normFrom (V (Proc.devRef .tc main_v14)) (V (Proc.devRef .tc main_v3)) (V (Proc.devRef .tc main_v6)) := by
  after_results_simp
  all_goals rfl

set_option maxHeartbeats 8000000 in
theorem D_v46 (V : Valuation τ sig (Elt Ideal)) :
    StableHlo.after (opsD (F := Ideal)) V (Proc.devRef .tc main_v46)
      = addf (F := Ideal) (s := S50000x64) (φ := .f32) (Cert.ReferenceIdeal.Stages.aggregateFrom (F := Ideal) (Cert.KernelIdeal.Product1.wholeProduct (V (Proc.devRef .tc main_arg0)) (V (Proc.devRef .tc main_arg2))) (V (Proc.devRef .tc main_v3)) (V (Proc.devRef .tc main_v6)) (V (Proc.devRef .tc main_v29))) (rows64 (V (Proc.devRef .tc main_arg3))) := by
  after_results_simp
  all_goals rfl

theorem E_v47 (V : Valuation τ sig (Elt Ideal)) :
    StableHlo.after (opsE (F := Ideal)) V (Proc.devRef .tc main_v47) = maximumf (F := Ideal) (s := S50000x64) (φ := .f32) (V (Proc.devRef .tc main_v46)) zeros64 := by
  after_results
  all_goals rfl

set_option maxHeartbeats 8000000 in
theorem G_v64 (V : Valuation τ sig (Elt Ideal)) :
    StableHlo.after (opsG (F := Ideal)) V (Proc.devRef .tc main_v64)
      = addf (F := Ideal) (s := S50000x64) (φ := .f32) (Cert.ReferenceIdeal.Stages.aggregateFrom (F := Ideal) (Cert.KernelIdeal.Product2.wholeProduct (V (Proc.devRef .tc main_v47)) (V (Proc.devRef .tc main_arg4))) (V (Proc.devRef .tc main_v3)) (V (Proc.devRef .tc main_v6)) (V (Proc.devRef .tc main_v29))) (rows64 (V (Proc.devRef .tc main_arg5))) := by
  after_results_simp
  all_goals rfl

theorem H_v65 (V : Valuation τ sig (Elt Ideal)) :
    StableHlo.after (opsH (F := Ideal)) V (Proc.devRef .tc main_v65) = maximumf (F := Ideal) (s := S50000x64) (φ := .f32) (V (Proc.devRef .tc main_v64)) zeros64 := by
  after_results
  all_goals rfl

theorem J_v69 (V : Valuation τ sig (Elt Ideal)) :
    StableHlo.after (opsJ (F := Ideal)) V (Proc.devRef .tc main_v69)
      = addf (F := Ideal) (s := S50000x2) (φ := .f32) (Cert.KernelIdeal.Logits.wholeProduct (V (Proc.devRef .tc main_v65)) (V (Proc.devRef .tc main_arg6))) (rows2 (V (Proc.devRef .tc main_arg7))) := by
  after_results
  all_goals rfl

/-! ## What each stretch keeps -/

theorem A_keeps_arg0 (V : Valuation τ sig (Elt Ideal)) : StableHlo.after (opsA (F := Ideal)) V (Proc.devRef .tc main_arg0) = V (Proc.devRef .tc main_arg0) := by
  after_results
theorem A_keeps_arg2 (V : Valuation τ sig (Elt Ideal)) : StableHlo.after (opsA (F := Ideal)) V (Proc.devRef .tc main_arg2) = V (Proc.devRef .tc main_arg2) := by
  after_results
theorem A_keeps_arg3 (V : Valuation τ sig (Elt Ideal)) : StableHlo.after (opsA (F := Ideal)) V (Proc.devRef .tc main_arg3) = V (Proc.devRef .tc main_arg3) := by
  after_results
theorem A_keeps_arg4 (V : Valuation τ sig (Elt Ideal)) : StableHlo.after (opsA (F := Ideal)) V (Proc.devRef .tc main_arg4) = V (Proc.devRef .tc main_arg4) := by
  after_results
theorem A_keeps_arg5 (V : Valuation τ sig (Elt Ideal)) : StableHlo.after (opsA (F := Ideal)) V (Proc.devRef .tc main_arg5) = V (Proc.devRef .tc main_arg5) := by
  after_results
theorem A_keeps_arg6 (V : Valuation τ sig (Elt Ideal)) : StableHlo.after (opsA (F := Ideal)) V (Proc.devRef .tc main_arg6) = V (Proc.devRef .tc main_arg6) := by
  after_results
theorem A_keeps_arg7 (V : Valuation τ sig (Elt Ideal)) : StableHlo.after (opsA (F := Ideal)) V (Proc.devRef .tc main_arg7) = V (Proc.devRef .tc main_arg7) := by
  after_results

theorem B_keeps_v3 (V : Valuation τ sig (Elt Ideal)) : StableHlo.after (opsB (F := Ideal)) V (Proc.devRef .tc main_v3) = V (Proc.devRef .tc main_v3) := by
  after_results
theorem B_keeps_v6 (V : Valuation τ sig (Elt Ideal)) : StableHlo.after (opsB (F := Ideal)) V (Proc.devRef .tc main_v6) = V (Proc.devRef .tc main_v6) := by
  after_results
theorem B_keeps_arg0 (V : Valuation τ sig (Elt Ideal)) : StableHlo.after (opsB (F := Ideal)) V (Proc.devRef .tc main_arg0) = V (Proc.devRef .tc main_arg0) := by
  after_results
theorem B_keeps_arg2 (V : Valuation τ sig (Elt Ideal)) : StableHlo.after (opsB (F := Ideal)) V (Proc.devRef .tc main_arg2) = V (Proc.devRef .tc main_arg2) := by
  after_results
theorem B_keeps_arg3 (V : Valuation τ sig (Elt Ideal)) : StableHlo.after (opsB (F := Ideal)) V (Proc.devRef .tc main_arg3) = V (Proc.devRef .tc main_arg3) := by
  after_results
theorem B_keeps_arg4 (V : Valuation τ sig (Elt Ideal)) : StableHlo.after (opsB (F := Ideal)) V (Proc.devRef .tc main_arg4) = V (Proc.devRef .tc main_arg4) := by
  after_results
theorem B_keeps_arg5 (V : Valuation τ sig (Elt Ideal)) : StableHlo.after (opsB (F := Ideal)) V (Proc.devRef .tc main_arg5) = V (Proc.devRef .tc main_arg5) := by
  after_results
theorem B_keeps_arg6 (V : Valuation τ sig (Elt Ideal)) : StableHlo.after (opsB (F := Ideal)) V (Proc.devRef .tc main_arg6) = V (Proc.devRef .tc main_arg6) := by
  after_results
theorem B_keeps_arg7 (V : Valuation τ sig (Elt Ideal)) : StableHlo.after (opsB (F := Ideal)) V (Proc.devRef .tc main_arg7) = V (Proc.devRef .tc main_arg7) := by
  after_results

theorem C_keeps_v3 (V : Valuation τ sig (Elt Ideal)) : StableHlo.after (opsC (F := Ideal)) V (Proc.devRef .tc main_v3) = V (Proc.devRef .tc main_v3) := by
  after_results
theorem C_keeps_v6 (V : Valuation τ sig (Elt Ideal)) : StableHlo.after (opsC (F := Ideal)) V (Proc.devRef .tc main_v6) = V (Proc.devRef .tc main_v6) := by
  after_results
theorem C_keeps_arg0 (V : Valuation τ sig (Elt Ideal)) : StableHlo.after (opsC (F := Ideal)) V (Proc.devRef .tc main_arg0) = V (Proc.devRef .tc main_arg0) := by
  after_results
theorem C_keeps_arg2 (V : Valuation τ sig (Elt Ideal)) : StableHlo.after (opsC (F := Ideal)) V (Proc.devRef .tc main_arg2) = V (Proc.devRef .tc main_arg2) := by
  after_results
theorem C_keeps_arg3 (V : Valuation τ sig (Elt Ideal)) : StableHlo.after (opsC (F := Ideal)) V (Proc.devRef .tc main_arg3) = V (Proc.devRef .tc main_arg3) := by
  after_results
theorem C_keeps_arg4 (V : Valuation τ sig (Elt Ideal)) : StableHlo.after (opsC (F := Ideal)) V (Proc.devRef .tc main_arg4) = V (Proc.devRef .tc main_arg4) := by
  after_results
theorem C_keeps_arg5 (V : Valuation τ sig (Elt Ideal)) : StableHlo.after (opsC (F := Ideal)) V (Proc.devRef .tc main_arg5) = V (Proc.devRef .tc main_arg5) := by
  after_results
theorem C_keeps_arg6 (V : Valuation τ sig (Elt Ideal)) : StableHlo.after (opsC (F := Ideal)) V (Proc.devRef .tc main_arg6) = V (Proc.devRef .tc main_arg6) := by
  after_results
theorem C_keeps_arg7 (V : Valuation τ sig (Elt Ideal)) : StableHlo.after (opsC (F := Ideal)) V (Proc.devRef .tc main_arg7) = V (Proc.devRef .tc main_arg7) := by
  after_results

theorem D_keeps_v3 (V : Valuation τ sig (Elt Ideal)) : StableHlo.after (opsD (F := Ideal)) V (Proc.devRef .tc main_v3) = V (Proc.devRef .tc main_v3) := by
  after_results
theorem D_keeps_v6 (V : Valuation τ sig (Elt Ideal)) : StableHlo.after (opsD (F := Ideal)) V (Proc.devRef .tc main_v6) = V (Proc.devRef .tc main_v6) := by
  after_results
theorem D_keeps_v29 (V : Valuation τ sig (Elt Ideal)) : StableHlo.after (opsD (F := Ideal)) V (Proc.devRef .tc main_v29) = V (Proc.devRef .tc main_v29) := by
  after_results
theorem D_keeps_arg4 (V : Valuation τ sig (Elt Ideal)) : StableHlo.after (opsD (F := Ideal)) V (Proc.devRef .tc main_arg4) = V (Proc.devRef .tc main_arg4) := by
  after_results
theorem D_keeps_arg5 (V : Valuation τ sig (Elt Ideal)) : StableHlo.after (opsD (F := Ideal)) V (Proc.devRef .tc main_arg5) = V (Proc.devRef .tc main_arg5) := by
  after_results
theorem D_keeps_arg6 (V : Valuation τ sig (Elt Ideal)) : StableHlo.after (opsD (F := Ideal)) V (Proc.devRef .tc main_arg6) = V (Proc.devRef .tc main_arg6) := by
  after_results
theorem D_keeps_arg7 (V : Valuation τ sig (Elt Ideal)) : StableHlo.after (opsD (F := Ideal)) V (Proc.devRef .tc main_arg7) = V (Proc.devRef .tc main_arg7) := by
  after_results

theorem E_keeps_v3 (V : Valuation τ sig (Elt Ideal)) : StableHlo.after (opsE (F := Ideal)) V (Proc.devRef .tc main_v3) = V (Proc.devRef .tc main_v3) := by
  after_results
theorem E_keeps_v6 (V : Valuation τ sig (Elt Ideal)) : StableHlo.after (opsE (F := Ideal)) V (Proc.devRef .tc main_v6) = V (Proc.devRef .tc main_v6) := by
  after_results
theorem E_keeps_v29 (V : Valuation τ sig (Elt Ideal)) : StableHlo.after (opsE (F := Ideal)) V (Proc.devRef .tc main_v29) = V (Proc.devRef .tc main_v29) := by
  after_results
theorem E_keeps_arg4 (V : Valuation τ sig (Elt Ideal)) : StableHlo.after (opsE (F := Ideal)) V (Proc.devRef .tc main_arg4) = V (Proc.devRef .tc main_arg4) := by
  after_results
theorem E_keeps_arg5 (V : Valuation τ sig (Elt Ideal)) : StableHlo.after (opsE (F := Ideal)) V (Proc.devRef .tc main_arg5) = V (Proc.devRef .tc main_arg5) := by
  after_results
theorem E_keeps_arg6 (V : Valuation τ sig (Elt Ideal)) : StableHlo.after (opsE (F := Ideal)) V (Proc.devRef .tc main_arg6) = V (Proc.devRef .tc main_arg6) := by
  after_results
theorem E_keeps_arg7 (V : Valuation τ sig (Elt Ideal)) : StableHlo.after (opsE (F := Ideal)) V (Proc.devRef .tc main_arg7) = V (Proc.devRef .tc main_arg7) := by
  after_results

theorem G_keeps_arg6 (V : Valuation τ sig (Elt Ideal)) : StableHlo.after (opsG (F := Ideal)) V (Proc.devRef .tc main_arg6) = V (Proc.devRef .tc main_arg6) := by
  after_results
theorem G_keeps_arg7 (V : Valuation τ sig (Elt Ideal)) : StableHlo.after (opsG (F := Ideal)) V (Proc.devRef .tc main_arg7) = V (Proc.devRef .tc main_arg7) := by
  after_results

theorem H_keeps_arg6 (V : Valuation τ sig (Elt Ideal)) : StableHlo.after (opsH (F := Ideal)) V (Proc.devRef .tc main_arg6) = V (Proc.devRef .tc main_arg6) := by
  after_results
theorem H_keeps_arg7 (V : Valuation τ sig (Elt Ideal)) : StableHlo.after (opsH (F := Ideal)) V (Proc.devRef .tc main_arg7) = V (Proc.devRef .tc main_arg7) := by
  after_results

/-! ## The boundaries, from the launch memory -/

variable (m : (ℓ : Loc nD τ sig) → Buf (Elt Ideal) ℓ)

/-- The buffers after the first stretch, from the launch memory. -/
def RA (c : Dev nD) : Valuation τ sig (Elt Ideal) := StableHlo.after (opsA (F := Ideal)) (StableHlo.launchContents m c)
def RB (c : Dev nD) : Valuation τ sig (Elt Ideal) := StableHlo.after (opsB (F := Ideal)) (RA m c)
def RC (c : Dev nD) : Valuation τ sig (Elt Ideal) := StableHlo.after (opsC (F := Ideal)) (RB m c)
def RD (c : Dev nD) : Valuation τ sig (Elt Ideal) := StableHlo.after (opsD (F := Ideal)) (RC m c)
def RE (c : Dev nD) : Valuation τ sig (Elt Ideal) := StableHlo.after (opsE (F := Ideal)) (RD m c)
def RG (c : Dev nD) : Valuation τ sig (Elt Ideal) := StableHlo.after (opsG (F := Ideal)) (RE m c)
def RH (c : Dev nD) : Valuation τ sig (Elt Ideal) := StableHlo.after (opsH (F := Ideal)) (RG m c)
def RJ (c : Dev nD) : Valuation τ sig (Elt Ideal) := StableHlo.after (opsJ (F := Ideal)) (RH m c)

/-- The fold of the ninety operations is the last boundary. -/
theorem fold_split (c : Dev nD) : StableHlo.after (ops (F := Ideal)) (StableHlo.launchContents m c) = RJ m c := by
  rw [ops_split (F := Ideal)]
  simp only [after_append]
  rfl

/-! ### After the first stretch -/

theorem RA_v3 (c : Dev nD) : RA m c (Proc.devRef .tc main_v3) = Cert.ReferenceIdeal.Stages.sources (F := Ideal) (m ((c.tc : Thread nD τ).loc main_arg1)) := by
  show StableHlo.after (opsA (F := Ideal)) (StableHlo.launchContents m c) (Proc.devRef .tc main_v3) = _
  after_results
  all_goals rfl

theorem RA_v6 (c : Dev nD) : RA m c (Proc.devRef .tc main_v6) = Cert.ReferenceIdeal.Stages.targets (F := Ideal) (m ((c.tc : Thread nD τ).loc main_arg1)) := by
  show StableHlo.after (opsA (F := Ideal)) (StableHlo.launchContents m c) (Proc.devRef .tc main_v6) = _
  after_results
  all_goals rfl

set_option maxHeartbeats 4000000 in
theorem RA_v12 (c : Dev nD) : RA m c (Proc.devRef .tc main_v12) = cmpf (F := Ideal) (s := S50000) (φ := .f32) .ogt (Cert.ReferenceIdeal.Stages.degree (F := Ideal) (m ((c.tc : Thread nD τ).loc main_arg1))) (broadcastInDim S50000 ![] bcast_S_S50000 (constant (F := Ideal) S_ .f32 0x00000000#32)) := by
  show StableHlo.after (opsA (F := Ideal)) (StableHlo.launchContents m c) (Proc.devRef .tc main_v12) = _
  after_results_simp
  all_goals rfl

set_option maxHeartbeats 4000000 in
theorem RA_v13 (c : Dev nD) : RA m c (Proc.devRef .tc main_v13) = Host.rsqrt (F := Ideal) (s := S50000) (φ := .f32) (Cert.ReferenceIdeal.Stages.degree (F := Ideal) (m ((c.tc : Thread nD τ).loc main_arg1))) := by
  show StableHlo.after (opsA (F := Ideal)) (StableHlo.launchContents m c) (Proc.devRef .tc main_v13) = _
  after_results_simp
  all_goals rfl

theorem RA_cst_2 (c : Dev nD) : RA m c (Proc.devRef .tc main_cst_2) = constant (F := Ideal) S_ .f32 0x00000000#32 := by
  show StableHlo.after (opsA (F := Ideal)) (StableHlo.launchContents m c) (Proc.devRef .tc main_cst_2) = _
  after_results
  all_goals rfl

theorem RA_arg0 (c : Dev nD) : RA m c (Proc.devRef .tc main_arg0) = (m ((c.tc : Thread nD τ).loc main_arg0)) := A_keeps_arg0 _
theorem RA_arg2 (c : Dev nD) : RA m c (Proc.devRef .tc main_arg2) = (m ((c.tc : Thread nD τ).loc main_arg2)) := A_keeps_arg2 _
theorem RA_arg3 (c : Dev nD) : RA m c (Proc.devRef .tc main_arg3) = (m ((c.tc : Thread nD τ).loc main_arg3)) := A_keeps_arg3 _
theorem RA_arg4 (c : Dev nD) : RA m c (Proc.devRef .tc main_arg4) = (m ((c.tc : Thread nD τ).loc main_arg4)) := A_keeps_arg4 _
theorem RA_arg5 (c : Dev nD) : RA m c (Proc.devRef .tc main_arg5) = (m ((c.tc : Thread nD τ).loc main_arg5)) := A_keeps_arg5 _
theorem RA_arg6 (c : Dev nD) : RA m c (Proc.devRef .tc main_arg6) = (m ((c.tc : Thread nD τ).loc main_arg6)) := A_keeps_arg6 _
theorem RA_arg7 (c : Dev nD) : RA m c (Proc.devRef .tc main_arg7) = (m ((c.tc : Thread nD τ).loc main_arg7)) := A_keeps_arg7 _

/-! ### The node weights -/

theorem RB_v14 (c : Dev nD) : RB m c (Proc.devRef .tc main_v14) = Cert.ReferenceIdeal.Stages.weight (F := Ideal) (m ((c.tc : Thread nD τ).loc main_arg1)) := by
  refine (B_v14 (RA m c)).trans ?_
  rw [RA_v12 m c, RA_v13 m c, RA_cst_2 m c]
  rfl

theorem RB_v3 (c : Dev nD) : RB m c (Proc.devRef .tc main_v3) = Cert.ReferenceIdeal.Stages.sources (F := Ideal) (m ((c.tc : Thread nD τ).loc main_arg1)) := (B_keeps_v3 (RA m c)).trans (RA_v3 m c)
theorem RB_v6 (c : Dev nD) : RB m c (Proc.devRef .tc main_v6) = Cert.ReferenceIdeal.Stages.targets (F := Ideal) (m ((c.tc : Thread nD τ).loc main_arg1)) := (B_keeps_v6 (RA m c)).trans (RA_v6 m c)
theorem RB_arg0 (c : Dev nD) : RB m c (Proc.devRef .tc main_arg0) = (m ((c.tc : Thread nD τ).loc main_arg0)) := (B_keeps_arg0 (RA m c)).trans (RA_arg0 m c)
theorem RB_arg2 (c : Dev nD) : RB m c (Proc.devRef .tc main_arg2) = (m ((c.tc : Thread nD τ).loc main_arg2)) := (B_keeps_arg2 (RA m c)).trans (RA_arg2 m c)
theorem RB_arg3 (c : Dev nD) : RB m c (Proc.devRef .tc main_arg3) = (m ((c.tc : Thread nD τ).loc main_arg3)) := (B_keeps_arg3 (RA m c)).trans (RA_arg3 m c)
theorem RB_arg4 (c : Dev nD) : RB m c (Proc.devRef .tc main_arg4) = (m ((c.tc : Thread nD τ).loc main_arg4)) := (B_keeps_arg4 (RA m c)).trans (RA_arg4 m c)
theorem RB_arg5 (c : Dev nD) : RB m c (Proc.devRef .tc main_arg5) = (m ((c.tc : Thread nD τ).loc main_arg5)) := (B_keeps_arg5 (RA m c)).trans (RA_arg5 m c)
theorem RB_arg6 (c : Dev nD) : RB m c (Proc.devRef .tc main_arg6) = (m ((c.tc : Thread nD τ).loc main_arg6)) := (B_keeps_arg6 (RA m c)).trans (RA_arg6 m c)
theorem RB_arg7 (c : Dev nD) : RB m c (Proc.devRef .tc main_arg7) = (m ((c.tc : Thread nD τ).loc main_arg7)) := (B_keeps_arg7 (RA m c)).trans (RA_arg7 m c)

/-! ### The edge coefficients -/

theorem RC_v29 (c : Dev nD) : RC m c (Proc.devRef .tc main_v29) = Cert.ReferenceIdeal.Stages.edgeNorm (F := Ideal) (m ((c.tc : Thread nD τ).loc main_arg1)) := by
  refine (C_v29 (RB m c)).trans ?_
  rw [RB_v14 m c, RB_v3 m c, RB_v6 m c]
  exact (edgeNorm_eq _).symm

theorem RC_v3 (c : Dev nD) : RC m c (Proc.devRef .tc main_v3) = Cert.ReferenceIdeal.Stages.sources (F := Ideal) (m ((c.tc : Thread nD τ).loc main_arg1)) := (C_keeps_v3 (RB m c)).trans (RB_v3 m c)
theorem RC_v6 (c : Dev nD) : RC m c (Proc.devRef .tc main_v6) = Cert.ReferenceIdeal.Stages.targets (F := Ideal) (m ((c.tc : Thread nD τ).loc main_arg1)) := (C_keeps_v6 (RB m c)).trans (RB_v6 m c)
theorem RC_arg0 (c : Dev nD) : RC m c (Proc.devRef .tc main_arg0) = (m ((c.tc : Thread nD τ).loc main_arg0)) := (C_keeps_arg0 (RB m c)).trans (RB_arg0 m c)
theorem RC_arg2 (c : Dev nD) : RC m c (Proc.devRef .tc main_arg2) = (m ((c.tc : Thread nD τ).loc main_arg2)) := (C_keeps_arg2 (RB m c)).trans (RB_arg2 m c)
theorem RC_arg3 (c : Dev nD) : RC m c (Proc.devRef .tc main_arg3) = (m ((c.tc : Thread nD τ).loc main_arg3)) := (C_keeps_arg3 (RB m c)).trans (RB_arg3 m c)
theorem RC_arg4 (c : Dev nD) : RC m c (Proc.devRef .tc main_arg4) = (m ((c.tc : Thread nD τ).loc main_arg4)) := (C_keeps_arg4 (RB m c)).trans (RB_arg4 m c)
theorem RC_arg5 (c : Dev nD) : RC m c (Proc.devRef .tc main_arg5) = (m ((c.tc : Thread nD τ).loc main_arg5)) := (C_keeps_arg5 (RB m c)).trans (RB_arg5 m c)
theorem RC_arg6 (c : Dev nD) : RC m c (Proc.devRef .tc main_arg6) = (m ((c.tc : Thread nD τ).loc main_arg6)) := (C_keeps_arg6 (RB m c)).trans (RB_arg6 m c)
theorem RC_arg7 (c : Dev nD) : RC m c (Proc.devRef .tc main_arg7) = (m ((c.tc : Thread nD τ).loc main_arg7)) := (C_keeps_arg7 (RB m c)).trans (RB_arg7 m c)

/-! ### The first layer -/

theorem RD_v46 (c : Dev nD) : RD m c (Proc.devRef .tc main_v46)
    = addf (F := Ideal) (s := S50000x64) (φ := .f32) (Cert.ReferenceIdeal.Stages.aggregate (F := Ideal) (Cert.KernelIdeal.Product1.wholeProduct (m ((c.tc : Thread nD τ).loc main_arg0)) (m ((c.tc : Thread nD τ).loc main_arg2))) (m ((c.tc : Thread nD τ).loc main_arg1))) (rows64 (m ((c.tc : Thread nD τ).loc main_arg3))) := by
  refine (D_v46 (RC m c)).trans ?_
  rw [RC_arg0 m c, RC_arg2 m c, RC_arg3 m c, RC_v3 m c, RC_v6 m c, RC_v29 m c]
  rfl

theorem RD_v3 (c : Dev nD) : RD m c (Proc.devRef .tc main_v3) = Cert.ReferenceIdeal.Stages.sources (F := Ideal) (m ((c.tc : Thread nD τ).loc main_arg1)) := (D_keeps_v3 (RC m c)).trans (RC_v3 m c)
theorem RD_v6 (c : Dev nD) : RD m c (Proc.devRef .tc main_v6) = Cert.ReferenceIdeal.Stages.targets (F := Ideal) (m ((c.tc : Thread nD τ).loc main_arg1)) := (D_keeps_v6 (RC m c)).trans (RC_v6 m c)
theorem RD_v29 (c : Dev nD) : RD m c (Proc.devRef .tc main_v29) = Cert.ReferenceIdeal.Stages.edgeNorm (F := Ideal) (m ((c.tc : Thread nD τ).loc main_arg1)) := (D_keeps_v29 (RC m c)).trans (RC_v29 m c)
theorem RD_arg4 (c : Dev nD) : RD m c (Proc.devRef .tc main_arg4) = (m ((c.tc : Thread nD τ).loc main_arg4)) := (D_keeps_arg4 (RC m c)).trans (RC_arg4 m c)
theorem RD_arg5 (c : Dev nD) : RD m c (Proc.devRef .tc main_arg5) = (m ((c.tc : Thread nD τ).loc main_arg5)) := (D_keeps_arg5 (RC m c)).trans (RC_arg5 m c)
theorem RD_arg6 (c : Dev nD) : RD m c (Proc.devRef .tc main_arg6) = (m ((c.tc : Thread nD τ).loc main_arg6)) := (D_keeps_arg6 (RC m c)).trans (RC_arg6 m c)
theorem RD_arg7 (c : Dev nD) : RD m c (Proc.devRef .tc main_arg7) = (m ((c.tc : Thread nD τ).loc main_arg7)) := (D_keeps_arg7 (RC m c)).trans (RC_arg7 m c)

theorem RE_v47 (c : Dev nD) : RE m c (Proc.devRef .tc main_v47) = (Cert.Network.layer1 (m ((c.tc : Thread nD τ).loc main_arg0)) (m ((c.tc : Thread nD τ).loc main_arg1)) (m ((c.tc : Thread nD τ).loc main_arg2)) (m ((c.tc : Thread nD τ).loc main_arg3))) := by
  refine (E_v47 (RD m c)).trans ?_
  rw [RD_v46 m c]
  exact host_bias1 _ _

theorem RE_v3 (c : Dev nD) : RE m c (Proc.devRef .tc main_v3) = Cert.ReferenceIdeal.Stages.sources (F := Ideal) (m ((c.tc : Thread nD τ).loc main_arg1)) := (E_keeps_v3 (RD m c)).trans (RD_v3 m c)
theorem RE_v6 (c : Dev nD) : RE m c (Proc.devRef .tc main_v6) = Cert.ReferenceIdeal.Stages.targets (F := Ideal) (m ((c.tc : Thread nD τ).loc main_arg1)) := (E_keeps_v6 (RD m c)).trans (RD_v6 m c)
theorem RE_v29 (c : Dev nD) : RE m c (Proc.devRef .tc main_v29) = Cert.ReferenceIdeal.Stages.edgeNorm (F := Ideal) (m ((c.tc : Thread nD τ).loc main_arg1)) := (E_keeps_v29 (RD m c)).trans (RD_v29 m c)
theorem RE_arg4 (c : Dev nD) : RE m c (Proc.devRef .tc main_arg4) = (m ((c.tc : Thread nD τ).loc main_arg4)) := (E_keeps_arg4 (RD m c)).trans (RD_arg4 m c)
theorem RE_arg5 (c : Dev nD) : RE m c (Proc.devRef .tc main_arg5) = (m ((c.tc : Thread nD τ).loc main_arg5)) := (E_keeps_arg5 (RD m c)).trans (RD_arg5 m c)
theorem RE_arg6 (c : Dev nD) : RE m c (Proc.devRef .tc main_arg6) = (m ((c.tc : Thread nD τ).loc main_arg6)) := (E_keeps_arg6 (RD m c)).trans (RD_arg6 m c)
theorem RE_arg7 (c : Dev nD) : RE m c (Proc.devRef .tc main_arg7) = (m ((c.tc : Thread nD τ).loc main_arg7)) := (E_keeps_arg7 (RD m c)).trans (RD_arg7 m c)

/-! ### The second layer -/

theorem RG_v64 (c : Dev nD) : RG m c (Proc.devRef .tc main_v64)
    = addf (F := Ideal) (s := S50000x64) (φ := .f32) (Cert.ReferenceIdeal.Stages.aggregate (F := Ideal) (Cert.KernelIdeal.Product2.wholeProduct (Cert.Network.layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg1))) (rows64 (m ((c.tc : Thread nD τ).loc main_arg5))) := by
  refine (G_v64 (RE m c)).trans ?_
  rw [RE_v47 m c, RE_arg4 m c, RE_arg5 m c, RE_v3 m c, RE_v6 m c, RE_v29 m c]
  rfl

theorem RG_arg6 (c : Dev nD) : RG m c (Proc.devRef .tc main_arg6) = (m ((c.tc : Thread nD τ).loc main_arg6)) := (G_keeps_arg6 (RE m c)).trans (RE_arg6 m c)
theorem RG_arg7 (c : Dev nD) : RG m c (Proc.devRef .tc main_arg7) = (m ((c.tc : Thread nD τ).loc main_arg7)) := (G_keeps_arg7 (RE m c)).trans (RE_arg7 m c)

theorem RH_v65 (c : Dev nD) : RH m c (Proc.devRef .tc main_v65) = (Cert.Network.layer2 (Cert.Network.layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) := by
  refine (H_v65 (RG m c)).trans ?_
  rw [RG_v64 m c]
  exact host_bias2 _ _

theorem RH_arg6 (c : Dev nD) : RH m c (Proc.devRef .tc main_arg6) = (m ((c.tc : Thread nD τ).loc main_arg6)) := (H_keeps_arg6 (RG m c)).trans (RG_arg6 m c)
theorem RH_arg7 (c : Dev nD) : RH m c (Proc.devRef .tc main_arg7) = (m ((c.tc : Thread nD τ).loc main_arg7)) := (H_keeps_arg7 (RG m c)).trans (RG_arg7 m c)

/-! ### The result -/

/-- THE REFERENCE'S RESULT: the fold at the result buffer is the network of the eight arguments. -/
theorem result (c : Dev nD) :
    StableHlo.after (ops (F := Ideal)) (StableHlo.launchContents m c) (Proc.devRef .tc main_v69)
      = Cert.Network.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [fold_split m c]
  refine (J_v69 (RH m c)).trans ?_
  rw [RH_v65 m c, RH_arg6 m c, RH_arg7 m c]
  exact host_logits _ _ _

set_option maxHeartbeats 8000000 in
theorem kept_arg0 (c : Dev nD) :
    StableHlo.after (ops (F := Ideal)) (StableHlo.launchContents m c) (Proc.devRef .tc main_arg0) = m ((c.tc : Thread nD τ).loc main_arg0) := by
  after_results_simp
  all_goals rfl

set_option maxHeartbeats 8000000 in
theorem kept_arg1 (c : Dev nD) :
    StableHlo.after (ops (F := Ideal)) (StableHlo.launchContents m c) (Proc.devRef .tc main_arg1) = m ((c.tc : Thread nD τ).loc main_arg1) := by
  after_results_simp
  all_goals rfl

set_option maxHeartbeats 8000000 in
theorem kept_arg2 (c : Dev nD) :
    StableHlo.after (ops (F := Ideal)) (StableHlo.launchContents m c) (Proc.devRef .tc main_arg2) = m ((c.tc : Thread nD τ).loc main_arg2) := by
  after_results_simp
  all_goals rfl

set_option maxHeartbeats 8000000 in
theorem kept_arg3 (c : Dev nD) :
    StableHlo.after (ops (F := Ideal)) (StableHlo.launchContents m c) (Proc.devRef .tc main_arg3) = m ((c.tc : Thread nD τ).loc main_arg3) := by
  after_results_simp
  all_goals rfl

set_option maxHeartbeats 8000000 in
theorem kept_arg4 (c : Dev nD) :
    StableHlo.after (ops (F := Ideal)) (StableHlo.launchContents m c) (Proc.devRef .tc main_arg4) = m ((c.tc : Thread nD τ).loc main_arg4) := by
  after_results_simp
  all_goals rfl

set_option maxHeartbeats 8000000 in
theorem kept_arg5 (c : Dev nD) :
    StableHlo.after (ops (F := Ideal)) (StableHlo.launchContents m c) (Proc.devRef .tc main_arg5) = m ((c.tc : Thread nD τ).loc main_arg5) := by
  after_results_simp
  all_goals rfl

set_option maxHeartbeats 8000000 in
theorem kept_arg6 (c : Dev nD) :
    StableHlo.after (ops (F := Ideal)) (StableHlo.launchContents m c) (Proc.devRef .tc main_arg6) = m ((c.tc : Thread nD τ).loc main_arg6) := by
  after_results_simp
  all_goals rfl

set_option maxHeartbeats 8000000 in
theorem kept_arg7 (c : Dev nD) :
    StableHlo.after (ops (F := Ideal)) (StableHlo.launchContents m c) (Proc.devRef .tc main_arg7) = m ((c.tc : Thread nD τ).loc main_arg7) := by
  after_results_simp
  all_goals rfl

end Cert.ReferenceIdeal.HostValue

end
-- ==== Proof.lean ====
/-
  The certificate: a two-layer graph convolution network, tiled against plain.

  Both programs compute `logits = relu(Â · relu(Â · (x · W1) + b1) · W2 + b2) · Wl + bl`, where `Â` is the graph's
  normalised adjacency with self loops: a round of message passing gathers rows at the edges' sources, scales them by
  the edges' coefficients and scatter-adds them at the targets.  The normalisation and the two rounds are the same host
  operations in both programs.  The kernel program moves the three matrix products and the two `+ bias, max 0` stages
  (and the last `+ bias`) into regions tiled over ten blocks of 5000 rows, with the products' operands passed through
  a narrower float format; the reference does them whole on the host.

  Over the extended reals a change of float format is the identity and a product into a zero accumulator is the plain
  sum over the contracted axis, so every region's output array is, block by block, the whole-array function the
  reference's stage computes: commutativity and associativity of the sums are all that is used, no finiteness of the
  inputs.  The kernel program ends with its result at the last boundary of its fold of segment contents, which is the
  network of its eight arguments; the reference's run is the fold of its ninety host operations, which is the same
  network; and the two memories agree on the arguments.

  The three frame claims: the two kernel programs' by their frame certificates, the reference's by its run with the
  result forgotten.  The idealization's ledger is empty, so `preserves` asks nothing.
-/
import proofs.«168623_j50723563766346_1_alg».proof.Defs
import proofs.«168623_j50723563766346_1_alg».proof.Proof.Gen.Kernel
import proofs.«168623_j50723563766346_1_alg».proof.Proof.Gen.Kernel.Frame
import proofs.«168623_j50723563766346_1_alg».proof.Proof.Gen.KernelIdeal
import proofs.«168623_j50723563766346_1_alg».proof.Proof.Gen.KernelIdeal.Frame
import proofs.«168623_j50723563766346_1_alg».proof.Proof.Gen.ReferenceIdeal
import proofs.«168623_j50723563766346_1_alg».proof.Proof.Gen.Pre_finite_inputs
import proofs.«168623_j50723563766346_1_alg».proof.Proof.KernelEnd
import proofs.«168623_j50723563766346_1_alg».proof.Proof.KernelFold
import proofs.«168623_j50723563766346_1_alg».proof.Proof.ReferenceRun
import proofs.«168623_j50723563766346_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result forgotten: no operation writes an argument buffer. -/
theorem frame_reference : Cert.frame_ReferenceIdeal := fun m ρ _ =>
  (θ_run Cert.ReferenceIdeal.defs _ _).mono (fun _ h c =>
    ⟨(h c Cert.ReferenceIdeal.main_arg0).trans (Cert.ReferenceIdeal.HostValue.kept_arg0 m c),
     (h c Cert.ReferenceIdeal.main_arg1).trans (Cert.ReferenceIdeal.HostValue.kept_arg1 m c),
     (h c Cert.ReferenceIdeal.main_arg2).trans (Cert.ReferenceIdeal.HostValue.kept_arg2 m c),
     (h c Cert.ReferenceIdeal.main_arg3).trans (Cert.ReferenceIdeal.HostValue.kept_arg3 m c),
     (h c Cert.ReferenceIdeal.main_arg4).trans (Cert.ReferenceIdeal.HostValue.kept_arg4 m c),
     (h c Cert.ReferenceIdeal.main_arg5).trans (Cert.ReferenceIdeal.HostValue.kept_arg5 m c),
     (h c Cert.ReferenceIdeal.main_arg6).trans (Cert.ReferenceIdeal.HostValue.kept_arg6 m c),
     (h c Cert.ReferenceIdeal.main_arg7).trans (Cert.ReferenceIdeal.HostValue.kept_arg7 m c)⟩)
    (Cert.ReferenceIdeal.HostRun.run (F := Ideal) m ρ)

theorem preserves : Cert.preserves_Kernel_KernelIdeal := trivial

/-- Both programs end with the network of the arguments in their result arrays, and the memories agree on the
    arguments. -/
theorem algebraic : Cert.algebraic_KernelIdeal_ReferenceIdeal := by
  intro m ρ m' ρ' _ hagree
  refine ⟨fun c => Cert.Network.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.last_boundary m ρ c), (h c).2⟩)
      (Cert.KernelIdeal.KernelEnd.run_to_last_boundary (F := Ideal) m ρ)
  · refine (θ_run Cert.ReferenceIdeal.defs _ _).mono (fun _ h c => ⟨?_,
      (h c Cert.ReferenceIdeal.main_arg0).trans (Cert.ReferenceIdeal.HostValue.kept_arg0 m' c),
      (h c Cert.ReferenceIdeal.main_arg1).trans (Cert.ReferenceIdeal.HostValue.kept_arg1 m' c),
      (h c Cert.ReferenceIdeal.main_arg2).trans (Cert.ReferenceIdeal.HostValue.kept_arg2 m' c),
      (h c Cert.ReferenceIdeal.main_arg3).trans (Cert.ReferenceIdeal.HostValue.kept_arg3 m' c),
      (h c Cert.ReferenceIdeal.main_arg4).trans (Cert.ReferenceIdeal.HostValue.kept_arg4 m' c),
      (h c Cert.ReferenceIdeal.main_arg5).trans (Cert.ReferenceIdeal.HostValue.kept_arg5 m' c),
      (h c Cert.ReferenceIdeal.main_arg6).trans (Cert.ReferenceIdeal.HostValue.kept_arg6 m' c),
      (h c Cert.ReferenceIdeal.main_arg7).trans (Cert.ReferenceIdeal.HostValue.kept_arg7 m' c)⟩)
      (Cert.ReferenceIdeal.HostRun.run (F := Ideal) m' ρ')
    refine ((h c Cert.ReferenceIdeal.main_v69).trans (Cert.ReferenceIdeal.HostValue.result m' c)).trans ?_
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
